-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S2304x768 : Shape := ⟨2, ![2304, 768]⟩
abbrev S768x768 : Shape := ⟨2, ![768, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S2x2048x768 .f32) (main_arg1 : FVec F S2304x768 .f32) (main_arg2 : FVec F S768x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S2x2048x768 : Shape := ⟨3, ![2, 2048, 768]⟩
abbrev S2304x768 : Shape := ⟨2, ![2304, 768]⟩
abbrev S768x768 : Shape := ⟨2, ![768, 768]⟩
abbrev S4096x768 : Shape := ⟨2, ![4096, 768]⟩
abbrev S4096x2304 : Shape := ⟨2, ![4096, 2304]⟩
abbrev S1024x768 : Shape := ⟨2, ![1024, 768]⟩
abbrev S1024x2304 : Shape := ⟨2, ![1024, 2304]⟩
abbrev S2x2048x12x192 : Shape := ⟨4, ![2, 2048, 12, 192]⟩
abbrev S2x12x2048x192 : Shape := ⟨4, ![2, 12, 2048, 192]⟩
abbrev S2x12x2048x64 : Shape := ⟨4, ![2, 12, 2048, 64]⟩
abbrev S2x2048x2048 : Shape := ⟨3, ![2, 2048, 2048]⟩
abbrev S1x12x256x64 : Shape := ⟨4, ![1, 12, 256, 64]⟩
abbrev S1x12x2048x64 : Shape := ⟨4, ![1, 12, 2048, 64]⟩
abbrev S1x256x2048 : Shape := ⟨3, ![1, 256, 2048]⟩
abbrev S256x2048 : Shape := ⟨2, ![256, 2048]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S256 : Shape := ⟨1, ![256]⟩
abbrev S256x1 : Shape := ⟨2, ![256, 1]⟩
abbrev S2x2048x12x64 : Shape := ⟨4, ![2, 2048, 12, 64]⟩
abbrev S512x768 : Shape := ⟨2, ![512, 768]⟩

abbrev nBuf : Space → Nat
  | .hbm => 19
  | .vmem => 21
  | .smem => 0
  | _ => 0

abbrev bufTy : (tb : Table) → Fin (tcTables nBuf tb) → BufTy
  | .hbm, ⟨0, _⟩ => ⟨S2x2048x768, .f32⟩
  | .hbm, ⟨1, _⟩ => ⟨S2304x768, .f32⟩
  | .hbm, ⟨2, _⟩ => ⟨S768x768, .f32⟩
  | .hbm, ⟨3, _⟩ => ⟨S2x2048x768, .bf16⟩
  | .hbm, ⟨4, _⟩ => ⟨S2304x768, .bf16⟩
  | .hbm, ⟨5, _⟩ => ⟨S768x768, .bf16⟩
  | .hbm, ⟨6, _⟩ => ⟨S4096x768, .bf16⟩
  | .hbm, ⟨7, _⟩ => ⟨S4096x2304, .bf16⟩
  | .hbm, ⟨8, _⟩ => ⟨S2x2048x12x192, .bf16⟩
  | .hbm, ⟨9, _⟩ => ⟨S2x12x2048x192, .bf16⟩
  | .hbm, ⟨10, _⟩ => ⟨S2x12x2048x64, .bf16⟩
  | .hbm, ⟨11, _⟩ => ⟨S2x12x2048x64, .bf16⟩
  | .hbm, ⟨12, _⟩ => ⟨S2x12x2048x64, .bf16⟩
  | .hbm, ⟨13, _⟩ => ⟨S2x12x2048x64, .bf16⟩
  | .hbm, ⟨14, _⟩ => ⟨S2x2048x2048, .f32⟩
  | .hbm, ⟨15, _⟩ => ⟨S2x2048x12x64, .bf16⟩
  | .hbm, ⟨16, _⟩ => ⟨S4096x768, .bf16⟩
  | .hbm, ⟨17, _⟩ => ⟨S4096x768, .f32⟩
  | .hbm, ⟨18, _⟩ => ⟨S2x2048x768, .f32⟩
  | .local _ .vmem, ⟨0, _⟩ => ⟨S1024x768, .bf16⟩
  | .local _ .vmem, ⟨1, _⟩ => ⟨S1024x768, .bf16⟩
  | .local _ .vmem, ⟨2, _⟩ => ⟨S2304x768, .bf16⟩
  | .local _ .vmem, ⟨3, _⟩ => ⟨S1024x2304, .bf16⟩
  | .local _ .vmem, ⟨4, _⟩ => ⟨S1024x2304, .bf16⟩
  | .local _ .vmem, ⟨5, _⟩ => ⟨S1x12x256x64, .bf16⟩
  | .local _ .vmem, ⟨6, _⟩ => ⟨S1x12x256x64, .bf16⟩
  | .local _ .vmem, ⟨7, _⟩ => ⟨S1x12x2048x64, .bf16⟩
  | .local _ .vmem, ⟨8, _⟩ => ⟨S1x12x2048x64, .bf16⟩
  | .local _ .vmem, ⟨9, _⟩ => ⟨S1x12x2048x64, .bf16⟩
  | .local _ .vmem, ⟨10, _⟩ => ⟨S1x12x2048x64, .bf16⟩
  | .local _ .vmem, ⟨11, _⟩ => ⟨S1x12x256x64, .bf16⟩
  | .local _ .vmem, ⟨12, _⟩ => ⟨S1x12x256x64, .bf16⟩
  | .local _ .vmem, ⟨13, _⟩ => ⟨S1x256x2048, .f32⟩
  | .local _ .vmem, ⟨14, _⟩ => ⟨S1x256x2048, .f32⟩
  | .local _ .vmem, ⟨15, _⟩ => ⟨S256x2048, .f32⟩
  | .local _ .vmem, ⟨16, _⟩ => ⟨S512x768, .bf16⟩
  | .local _ .vmem, ⟨17, _⟩ => ⟨S512x768, .bf16⟩
  | .local _ .vmem, ⟨18, _⟩ => ⟨S768x768, .bf16⟩
  | .local _ .vmem, ⟨19, _⟩ => ⟨S512x768, .f32⟩
  | .local _ .vmem, ⟨20, _⟩ => ⟨S512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x12x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x12x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x12x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x12x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  shapeCasts_S2x2048x768_S4096x768 : S2x2048x768.ShapeCasts S4096x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  shapeCasts_S4096x2304_S2x2048x12x192 : S4096x2304.ShapeCasts S2x2048x12x192
  transposes_S2x2048x12x192_S2x12x2048x192_0_2_1_3 : S2x2048x12x192.Transposes [0, 2, 1, 3] S2x12x2048x192
  slices_S2x12x2048x192_S2x12x2048x64_0_0_0_0 : S2x12x2048x192.Slices ![0, 0, 0, 0] S2x12x2048x64
  slices_S2x12x2048x192_S2x12x2048x64_0_0_0_64 : S2x12x2048x192.Slices ![0, 0, 0, 64] S2x12x2048x64
  slices_S2x12x2048x192_S2x12x2048x64_0_0_0_128 : S2x12x2048x192.Slices ![0, 0, 0, 128] S2x12x2048x64
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x12x256x64_S1x1x256x64_0_0_0_0 : ∀ a, (![0, 0, 0, 0] : Fin 4 → Nat) a + S1x1x256x64.size a ≤ S1x12x256x64.size a
  h_S1x1x256x64 : 0 < S1x1x256x64.numel
  shapeCasts_S1x1x256x64_S256x64 : S1x1x256x64.ShapeCasts S256x64
  inb_S1x12x2048x64_S1x1x2048x64_0_0_0_0 : ∀ a, (![0, 0, 0, 0] : Fin 4 → Nat) a + S1x1x2048x64.size a ≤ S1x12x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  packedbf16_S1x12x256x64_S1x1x256x64_0_0_0_0 : (Rect.unit (s := S1x12x256x64) ![0, 0, 0, 0] S1x1x256x64.size inb_S1x12x256x64_S1x1x256x64_0_0_0_0).PackedRows (EltTy.packing .bf16)
  inb_S1x12x256x64_S1x1x256x64_0_1_0_0 : ∀ a, (![0, 1, 0, 0] : Fin 4 → Nat) a + S1x1x256x64.size a ≤ S1x12x256x64.size a
  inb_S1x12x2048x64_S1x1x2048x64_0_1_0_0 : ∀ a, (![0, 1, 0, 0] : Fin 4 → Nat) a + S1x1x2048x64.size a ≤ S1x12x2048x64.size a
  packedbf16_S1x12x256x64_S1x1x256x64_0_1_0_0 : (Rect.unit (s := S1x12x256x64) ![0, 1, 0, 0] S1x1x256x64.size inb_S1x12x256x64_S1x1x256x64_0_1_0_0).PackedRows (EltTy.packing .bf16)
  inb_S1x12x256x64_S1x1x256x64_0_2_0_0 : ∀ a, (![0, 2, 0, 0] : Fin 4 → Nat) a + S1x1x256x64.size a ≤ S1x12x256x64.size a
  inb_S1x12x2048x64_S1x1x2048x64_0_2_0_0 : ∀ a, (![0, 2, 0, 0] : Fin 4 → Nat) a + S1x1x2048x64.size a ≤ S1x12x2048x64.size a
  packedbf16_S1x12x256x64_S1x1x256x64_0_2_0_0 : (Rect.unit (s := S1x12x256x64) ![0, 2, 0, 0] S1x1x256x64.size inb_S1x12x256x64_S1x1x256x64_0_2_0_0).PackedRows (EltTy.packing .bf16)
  inb_S1x12x256x64_S1x1x256x64_0_3_0_0 : ∀ a, (![0, 3, 0, 0] : Fin 4 → Nat) a + S1x1x256x64.size a ≤ S1x12x256x64.size a
  inb_S1x12x2048x64_S1x1x2048x64_0_3_0_0 : ∀ a, (![0, 3, 0, 0] : Fin 4 → Nat) a + S1x1x2048x64.size a ≤ S1x12x2048x64.size a
  packedbf16_S1x12x256x64_S1x1x256x64_0_3_0_0 : (Rect.unit (s := S1x12x256x64) ![0, 3, 0, 0] S1x1x256x64.size inb_S1x12x256x64_S1x1x256x64_0_3_0_0).PackedRows (EltTy.packing .bf16)
  inb_S1x12x256x64_S1x1x256x64_0_4_0_0 : ∀ a, (![0, 4, 0, 0] : Fin 4 → Nat) a + S1x1x256x64.size a ≤ S1x12x256x64.size a
  inb_S1x12x2048x64_S1x1x2048x64_0_4_0_0 : ∀ a, (![0, 4, 0, 0] : Fin 4 → Nat) a + S1x1x2048x64.size a ≤ S1x12x2048x64.size a
  packedbf16_S1x12x256x64_S1x1x256x64_0_4_0_0 : (Rect.unit (s := S1x12x256x64) ![0, 4, 0, 0] S1x1x256x64.size inb_S1x12x256x64_S1x1x256x64_0_4_0_0).PackedRows (EltTy.packing .bf16)
  inb_S1x12x256x64_S1x1x256x64_0_5_0_0 : ∀ a, (![0, 5, 0, 0] : Fin 4 → Nat) a + S1x1x256x64.size a ≤ S1x12x256x64.size a
  inb_S1x12x2048x64_S1x1x2048x64_0_5_0_0 : ∀ a, (![0, 5, 0, 0] : Fin 4 → Nat) a + S1x1x2048x64.size a ≤ S1x12x2048x64.size a
  packedbf16_S1x12x256x64_S1x1x256x64_0_5_0_0 : (Rect.unit (s := S1x12x256x64) ![0, 5, 0, 0] S1x1x256x64.size inb_S1x12x256x64_S1x1x256x64_0_5_0_0).PackedRows (EltTy.packing .bf16)
  inb_S1x12x256x64_S1x1x256x64_0_6_0_0 : ∀ a, (![0, 6, 0, 0] : Fin 4 → Nat) a + S1x1x256x64.size a ≤ S1x12x256x64.size a
  inb_S1x12x2048x64_S1x1x2048x64_0_6_0_0 : ∀ a, (![0, 6, 0, 0] : Fin 4 → Nat) a + S1x1x2048x64.size a ≤ S1x12x2048x64.size a
  packedbf16_S1x12x256x64_S1x1x256x64_0_6_0_0 : (Rect.unit (s := S1x12x256x64) ![0, 6, 0, 0] S1x1x256x64.size inb_S1x12x256x64_S1x1x256x64_0_6_0_0).PackedRows (EltTy.packing .bf16)
  inb_S1x12x256x64_S1x1x256x64_0_7_0_0 : ∀ a, (![0, 7, 0, 0] : Fin 4 → Nat) a + S1x1x256x64.size a ≤ S1x12x256x64.size a
  inb_S1x12x2048x64_S1x1x2048x64_0_7_0_0 : ∀ a, (![0, 7, 0, 0] : Fin 4 → Nat) a + S1x1x2048x64.size a ≤ S1x12x2048x64.size a
  packedbf16_S1x12x256x64_S1x1x256x64_0_7_0_0 : (Rect.unit (s := S1x12x256x64) ![0, 7, 0, 0] S1x1x256x64.size inb_S1x12x256x64_S1x1x256x64_0_7_0_0).PackedRows (EltTy.packing .bf16)
  inb_S1x12x256x64_S1x1x256x64_0_8_0_0 : ∀ a, (![0, 8, 0, 0] : Fin 4 → Nat) a + S1x1x256x64.size a ≤ S1x12x256x64.size a
  inb_S1x12x2048x64_S1x1x2048x64_0_8_0_0 : ∀ a, (![0, 8, 0, 0] : Fin 4 → Nat) a + S1x1x2048x64.size a ≤ S1x12x2048x64.size a
  packedbf16_S1x12x256x64_S1x1x256x64_0_8_0_0 : (Rect.unit (s := S1x12x256x64) ![0, 8, 0, 0] S1x1x256x64.size inb_S1x12x256x64_S1x1x256x64_0_8_0_0).PackedRows (EltTy.packing .bf16)
  inb_S1x12x256x64_S1x1x256x64_0_9_0_0 : ∀ a, (![0, 9, 0, 0] : Fin 4 → Nat) a + S1x1x256x64.size a ≤ S1x12x256x64.size a
  inb_S1x12x2048x64_S1x1x2048x64_0_9_0_0 : ∀ a, (![0, 9, 0, 0] : Fin 4 → Nat) a + S1x1x2048x64.size a ≤ S1x12x2048x64.size a
  packedbf16_S1x12x256x64_S1x1x256x64_0_9_0_0 : (Rect.unit (s := S1x12x256x64) ![0, 9, 0, 0] S1x1x256x64.size inb_S1x12x256x64_S1x1x256x64_0_9_0_0).PackedRows (EltTy.packing .bf16)
  inb_S1x12x256x64_S1x1x256x64_0_10_0_0 : ∀ a, (![0, 10, 0, 0] : Fin 4 → Nat) a + S1x1x256x64.size a ≤ S1x12x256x64.size a
  inb_S1x12x2048x64_S1x1x2048x64_0_10_0_0 : ∀ a, (![0, 10, 0, 0] : Fin 4 → Nat) a + S1x1x2048x64.size a ≤ S1x12x2048x64.size a
  packedbf16_S1x12x256x64_S1x1x256x64_0_10_0_0 : (Rect.unit (s := S1x12x256x64) ![0, 10, 0, 0] S1x1x256x64.size inb_S1x12x256x64_S1x1x256x64_0_10_0_0).PackedRows (EltTy.packing .bf16)
  inb_S1x12x256x64_S1x1x256x64_0_11_0_0 : ∀ a, (![0, 11, 0, 0] : Fin 4 → Nat) a + S1x1x256x64.size a ≤ S1x12x256x64.size a
  inb_S1x12x2048x64_S1x1x2048x64_0_11_0_0 : ∀ a, (![0, 11, 0, 0] : Fin 4 → Nat) a + S1x1x2048x64.size a ≤ S1x12x2048x64.size a
  packedbf16_S1x12x256x64_S1x1x256x64_0_11_0_0 : (Rect.unit (s := S1x12x256x64) ![0, 11, 0, 0] S1x1x256x64.size inb_S1x12x256x64_S1x1x256x64_0_11_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  transposes_S2x12x2048x64_S2x2048x12x64_0_2_1_3 : S2x12x2048x64.Transposes [0, 2, 1, 3] S2x2048x12x64
  shapeCasts_S2x2048x12x64_S4096x768 : S2x2048x12x64.ShapeCasts S4096x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S4096x768_S2x2048x768 : S4096x768.ShapeCasts S2x2048x768
  dot_S1024x768_S2304x768_S1024x2304_1_1_0_0_n_n_wf : DotDims.WF S1024x768 S2304x768 S1024x2304 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .bf16 = 32 ∨ (Rect.block (s := S4096x768) S1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2304.size a ≤ S4096x2304.size a
  hwx0_2 : ∀ i : grid0.Coords, EltTy.bits .bf16 = 32 ∨ (Rect.block (s := S4096x2304) S1024x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12x256x64.size a ≤ S2x12x2048x64.size a
  hwx1_0 : ∀ i : grid1.Coords, EltTy.bits .bf16 = 32 ∨ (Rect.block (s := S2x12x2048x64) S1x12x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x12x2048x64.size a ≤ S2x12x2048x64.size a
  hwx1_1 : ∀ i : grid1.Coords, EltTy.bits .bf16 = 32 ∨ (Rect.block (s := S2x12x2048x64) S1x12x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12x2048x64.size a ≤ S2x12x2048x64.size a
  hwx1_2 : ∀ i : grid1.Coords, EltTy.bits .bf16 = 32 ∨ (Rect.block (s := S2x12x2048x64) S1x12x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x12x256x64.size a ≤ S2x12x2048x64.size a
  hwx1_3 : ∀ i : grid1.Coords, EltTy.bits .bf16 = 32 ∨ (Rect.block (s := S2x12x2048x64) S1x12x256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S2x2048x2048.size a
  hwx1_4 : ∀ i : grid1.Coords, EltTy.bits .f32 = 32 ∨ (Rect.block (s := S2x2048x2048) S1x256x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .bf16 = 32 ∨ (Rect.block (s := S4096x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x768.size a ≤ S4096x768.size a
  hwx2_2 : ∀ i : grid2.Coords, EltTy.bits .f32 = 32 ∨ (Rect.block (s := S4096x768) S512x768.size (cc2_transform_2 i) (hinb2_2 i)).WholeWords (EltTy.packing .f32)

variable [Facts₀]

def dot_S1024x768_S2304x768_S1024x2304_1_1_0_0_n_n : DotDims S1024x768 S2304x768 S1024x2304 where
  lhsContracting := [1]
  rhsContracting := [1]
  lhsNonContracting := [0]
  rhsNonContracting := [0]
  lhsBatch := []
  rhsBatch := []
  wf := dot_S1024x768_S2304x768_S1024x2304_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_v3) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x12x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x12x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x12x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S1x12x256x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S512x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x768 : Shape := ⟨3, ![2, 2048, 768]⟩
abbrev S2304x768 : Shape := ⟨2, ![2304, 768]⟩
abbrev S768x768 : Shape := ⟨2, ![768, 768]⟩
abbrev S2x2048x2304 : Shape := ⟨3, ![2, 2048, 2304]⟩
abbrev S2x2048x12x192 : Shape := ⟨4, ![2, 2048, 12, 192]⟩
abbrev S2x12x2048x192 : Shape := ⟨4, ![2, 12, 2048, 192]⟩
abbrev S2x12x2048x64 : Shape := ⟨4, ![2, 12, 2048, 64]⟩
abbrev S_ : Shape := ⟨0, ![]⟩
abbrev S2x12x2048x2048 : Shape := ⟨4, ![2, 12, 2048, 2048]⟩
abbrev S2x12x2048 : Shape := ⟨3, ![2, 12, 2048]⟩
abbrev S2x12x2048x1 : Shape := ⟨4, ![2, 12, 2048, 1]⟩
abbrev S2x2048x12x64 : Shape := ⟨4, ![2, 2048, 12, 64]⟩
abbrev S2x2048x2048 : Shape := ⟨3, ![2, 2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2304x768, .f32⟩
  | .hbm, ⟨2, _⟩ => ⟨S768x768, .f32⟩
  | .hbm, ⟨3, _⟩ => ⟨S2x2048x2304, .f32⟩
  | .hbm, ⟨4, _⟩ => ⟨S2x2048x12x192, .f32⟩
  | .hbm, ⟨5, _⟩ => ⟨S2x12x2048x192, .f32⟩
  | .hbm, ⟨6, _⟩ => ⟨S2x12x2048x64, .f32⟩
  | .hbm, ⟨7, _⟩ => ⟨S2x12x2048x64, .f32⟩
  | .hbm, ⟨8, _⟩ => ⟨S2x12x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x12x2048x2048, .f32⟩
  | .hbm, ⟨14, _⟩ => ⟨S2x12x2048x2048, .f32⟩
  | .hbm, ⟨15, _⟩ => ⟨S2x12x2048x2048, .f32⟩
  | .hbm, ⟨16, _⟩ => ⟨S_, .f32⟩
  | .hbm, ⟨17, _⟩ => ⟨S2x12x2048, .f32⟩
  | .hbm, ⟨18, _⟩ => ⟨S_, .f32⟩
  | .hbm, ⟨19, _⟩ => ⟨S2x12x2048, .f32⟩
  | .hbm, ⟨20, _⟩ => ⟨S2x12x2048, .f32⟩
  | .hbm, ⟨21, _⟩ => ⟨S2x12x2048x1, .f32⟩
  | .hbm, ⟨22, _⟩ => ⟨S2x12x2048x2048, .f32⟩
  | .hbm, ⟨23, _⟩ => ⟨S2x12x2048x2048, .f32⟩
  | .hbm, ⟨24, _⟩ => ⟨S2x12x2048x2048, .f32⟩
  | .hbm, ⟨25, _⟩ => ⟨S_, .f32⟩
  | .hbm, ⟨26, _⟩ => ⟨S2x12x2048, .f32⟩
  | .hbm, ⟨27, _⟩ => ⟨S2x12x2048x1, .f32⟩
  | .hbm, ⟨28, _⟩ => ⟨S2x12x2048x2048, .f32⟩
  | .hbm, ⟨29, _⟩ => ⟨S2x12x2048x2048, .f32⟩
  | .hbm, ⟨30, _⟩ => ⟨S2x12x2048x64, .f32⟩
  | .hbm, ⟨31, _⟩ => ⟨S2x2048x12x64, .f32⟩
  | .hbm, ⟨32, _⟩ => ⟨S2x2048x768, .f32⟩
  | .hbm, ⟨33, _⟩ => ⟨S2x2048x768, .f32⟩
  | .hbm, ⟨34, _⟩ => ⟨S_, .f32⟩
  | .hbm, ⟨35, _⟩ => ⟨S2x2048x2048, .f32⟩
  | .hbm, ⟨36, _⟩ => ⟨S_, .f32⟩
  | .hbm, ⟨37, _⟩ => ⟨S2x2048x2048, .f32⟩
  | .hbm, ⟨38, _⟩ => ⟨S2x2048x2048, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S2x2048x2304_S2x2048x12x192 : S2x2048x2304.ShapeCasts S2x2048x12x192
  transposes_S2x2048x12x192_S2x12x2048x192_0_2_1_3 : S2x2048x12x192.Transposes [0, 2, 1, 3] S2x12x2048x192
  slices_S2x12x2048x192_S2x12x2048x64_0_0_0_0 : S2x12x2048x192.Slices ![0, 0, 0, 0] S2x12x2048x64
  slices_S2x12x2048x192_S2x12x2048x64_0_0_0_64 : S2x12x2048x192.Slices ![0, 0, 0, 64] S2x12x2048x64
  slices_S2x12x2048x192_S2x12x2048x64_0_0_0_128 : S2x12x2048x192.Slices ![0, 0, 0, 128] S2x12x2048x64
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  reducesTo_S2x12x2048x2048_S2x2048x2048_d1 : S2x12x2048x2048.ReducesTo [1] S2x2048x2048
  bcast_S_S2x2048x2048 : S_.BroadcastsInDim S2x2048x2048 (![] : Fin 0 → Fin S2x2048x2048.rank)
  dot_S2x2048x768_S2304x768_S2x2048x2304_2_1_01_0_n_n_wf : DotDims.WF S2x2048x768 S2304x768 S2x2048x2304 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]
  dot_S2x2048x768_S768x768_S2x2048x768_2_1_01_0_n_n_wf : DotDims.WF S2x2048x768 S768x768 S2x2048x768 [2] [1] [0, 1] [0] [] []

variable [Facts₀]

def dot_S2x2048x768_S2304x768_S2x2048x2304_2_1_01_0_n_n : DotDims S2x2048x768 S2304x768 S2x2048x2304 where
  lhsContracting := [2]
  rhsContracting := [1]
  lhsNonContracting := [0, 1]
  rhsNonContracting := [0]
  lhsBatch := []
  rhsBatch := []
  wf := dot_S2x2048x768_S2304x768_S2x2048x2304_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf
def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf

class Facts : Prop extends Facts₀ where

variable [Facts]
-- ==== Proof.KernelRun.lean ====
/-
  The idealized kernel program's run with its two results named.

  The program is four stretches of host operations around three pipelined regions. Every weakly fair execution
  terminates in a state in which each unscoped buffer holds the contents the fold through the seven segments
  leaves in it; read at the two result buffers and the three arguments, that is the statement below: the results
  are the last boundary's contents, the arguments are as launched.
-/
import proofs.«177644_j16097537425671_2_alg».proof.Proof.Gen.KernelIdeal.Frame

set_option maxRecDepth 16384

noncomputable section

namespace Cert.Attn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two results end at the last
    boundary's contents and the three arguments as launched. -/
theorem run_results : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_v10_1) = W7 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       h c _ (mem_uc main_v10_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.Attn.KRun

end
-- ==== Proof.HostGlue.lean ====
/-
  The host operations between the three regions, read as values.

  Before the first product the arguments are narrowed (the identity on exact values) and the rows of the two
  sequences are stacked into one 4096-row matrix. After it the 2304 features of each row are cut into 12 heads of
  192, the head axis is moved in front of the row axis, and the three 64-wide slices (queries, keys, values) are
  taken. After the attention region the head axis is moved back behind the row axis and the 12 × 64 coordinates are
  laid side by side. After the last product the 4096 rows are split back into the two sequences. The second result
  is untouched by everything after the attention region.
-/
import proofs.«177644_j16097537425671_2_alg».proof.Proof.Gen.KernelIdeal.Frame
import Idealize.ShloMosaic.Lib.StableHlo.Run

set_option maxRecDepth 16384

noncomputable section

namespace Cert.Attn.Glue

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F] [Named F]
variable (m : (ℓ : Loc nD τ sig) → Buf (Elt F) ℓ) (ρ : Dev nD → PrngReg)

/-- Entering the first region, its left operand is the stacked, narrowed first argument. -/
theorem W1_v3 (c : Dev nD) : W1 m ρ c (Proc.devRef .tc main_v3)
    = shapeCast _ (truncf .bf16 (m ((c.tc : Thread nD τ).loc main_arg0)) bitsLt_bf16_f32) shapeCasts_S2x2048x768_S4096x768 := by
  show StableHlo.after hostOps0 (W0 m ρ c) (Proc.devRef .tc main_v3) = _
  after_results; rfl

/-- … and its right operand the narrowed second argument. -/
theorem W1_v1 (c : Dev nD) : W1 m ρ c (Proc.devRef .tc main_v1)
    = truncf .bf16 (m ((c.tc : Thread nD τ).loc main_arg1)) bitsLt_bf16_f32 := by
  show StableHlo.after hostOps0 (W0 m ρ c) (Proc.devRef .tc main_v1) = _
  after_results

/-- The narrowed third argument, as the first stretch leaves it. -/
theorem W1_v2 (c : Dev nD) : W1 m ρ c (Proc.devRef .tc main_v2)
    = truncf .bf16 (m ((c.tc : Thread nD τ).loc main_arg2)) bitsLt_bf16_f32 := by
  show StableHlo.after hostOps0 (W0 m ρ c) (Proc.devRef .tc main_v2) = _
  after_results

/-- The queries entering the attention region, from the first region's result array. -/
theorem W3_v7 (c : Dev nD) : W3 m ρ c (Proc.devRef .tc main_v7)
    = extractStridedSlice S2x12x2048x64 ![0, 0, 0, 0] (transpose S2x12x2048x192 [0, 2, 1, 3]
        (shapeCast _ (W2 m ρ c (Proc.devRef .tc main_v4)) shapeCasts_S4096x2304_S2x2048x12x192)
        transposes_S2x2048x12x192_S2x12x2048x192_0_2_1_3) slices_S2x12x2048x192_S2x12x2048x64_0_0_0_0 := by
  show StableHlo.after hostOps1 (W2 m ρ c) (Proc.devRef .tc main_v7) = _
  after_results; rfl

/-- The keys. -/
theorem W3_v8 (c : Dev nD) : W3 m ρ c (Proc.devRef .tc main_v8)
    = extractStridedSlice S2x12x2048x64 ![0, 0, 0, 64] (transpose S2x12x2048x192 [0, 2, 1, 3]
        (shapeCast _ (W2 m ρ c (Proc.devRef .tc main_v4)) shapeCasts_S4096x2304_S2x2048x12x192)
        transposes_S2x2048x12x192_S2x12x2048x192_0_2_1_3) slices_S2x12x2048x192_S2x12x2048x64_0_0_0_64 := by
  show StableHlo.after hostOps1 (W2 m ρ c) (Proc.devRef .tc main_v8) = _
  after_results; rfl

/-- The values. -/
theorem W3_v9 (c : Dev nD) : W3 m ρ c (Proc.devRef .tc main_v9)
    = extractStridedSlice S2x12x2048x64 ![0, 0, 0, 128] (transpose S2x12x2048x192 [0, 2, 1, 3]
        (shapeCast _ (W2 m ρ c (Proc.devRef .tc main_v4)) shapeCasts_S4096x2304_S2x2048x12x192)
        transposes_S2x2048x12x192_S2x12x2048x192_0_2_1_3) slices_S2x12x2048x192_S2x12x2048x64_0_0_0_128 := by
  show StableHlo.after hostOps1 (W2 m ρ c) (Proc.devRef .tc main_v9) = _
  after_results; rfl

/-- The left operand of the last product, from the attention region's first result array. -/
theorem W5_v12 (c : Dev nD) : W5 m ρ c (Proc.devRef .tc main_v12)
    = shapeCast _ (transpose S2x2048x12x64 [0, 2, 1, 3] (W4 m ρ c (Proc.devRef .tc main_v10_0))
        transposes_S2x12x2048x64_S2x2048x12x64_0_2_1_3) shapeCasts_S2x2048x12x64_S4096x768 := by
  show StableHlo.after hostOps2 (W4 m ρ c) (Proc.devRef .tc main_v12) = _
  after_results; rfl

/-- The first result, from the last region's result array. -/
theorem W7_v14 (c : Dev nD) : W7 m ρ c (Proc.devRef .tc main_v14)
    = shapeCast _ (W6 m ρ c (Proc.devRef .tc main_v13)) shapeCasts_S4096x768_S2x2048x768 := by
  show StableHlo.after hostOps3 (W6 m ρ c) (Proc.devRef .tc main_v14) = _
  after_results; rfl

/-- No operation between the first stretch and the last region writes the narrowed third argument. -/
theorem W5_v2 (c : Dev nD) : W5 m ρ c (Proc.devRef .tc main_v2) = W1 m ρ c (Proc.devRef .tc main_v2) :=
  calc W5 m ρ c (Proc.devRef .tc main_v2)
    _ = W4 m ρ c (Proc.devRef .tc main_v2) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W3 m ρ c (Proc.devRef .tc main_v2) := W4_of_ne m ρ c main_v2 (by decide)
    _ = W2 m ρ c (Proc.devRef .tc main_v2) := StableHlo.after_of_forall_not_mem _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))
    _ = W1 m ρ c (Proc.devRef .tc main_v2) := W2_of_ne m ρ c main_v2 (by decide)

/-- Nothing after the attention region writes its second result. -/
theorem W7_v10_1 (c : Dev nD) : W7 m ρ c (Proc.devRef .tc main_v10_1) = W4 m ρ c (Proc.devRef .tc main_v10_1) :=
  calc W7 m ρ c (Proc.devRef .tc main_v10_1)
    _ = W6 m ρ c (Proc.devRef .tc main_v10_1) := StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))
    _ = W5 m ρ c (Proc.devRef .tc main_v10_1) := W6_of_ne m ρ c main_v10_1 (by decide)
    _ = W4 m ρ c (Proc.devRef .tc main_v10_1) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))

end Cert.Attn.Glue

end
-- ==== Proof.TiledProduct0.lean ====
/-
  The fused projection of the idealized kernel: a tiled matrix product.

  The array of 4096 rows and 768 features is cut into 4 blocks of 1024 rows; grid point t multiplies block t with
  the transposed 2304 × 768 weight, which every point reads whole, and writes block t of the 4096 × 2304 result.
  On the extended reals the format changes are the identity and the product into a zero accumulator is the plain
  sum over the 768 contracted features, so after the 4 points the result array is the whole matrix product,
  index by index.
-/
import proofs.«177644_j16097537425671_2_alg».proof.Proof.Gen.KernelIdeal.Frame
import Idealize.ShloMosaic.Lib.Pipeline.Value
import Idealize.ShloMosaic.Lib.ValueIdx
import Idealize.ShloMosaic.PureOps.Ideal.Laws

noncomputable section

namespace Cert.Attn.Tiled

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's product, at an index -/

/-- The left operand's row is the result's row. -/
theorem lhsRow0 (i : S1024x2304.Idx) (q : dot_S1024x768_S2304x768_S1024x2304_1_1_0_0_n_n.contr.Idx) :
    (dot_S1024x768_S2304x768_S1024x2304_1_1_0_0_n_n.lhsIdx i q 0).val = (i 0).val := by
  unfold DotDims.lhsIdx
  rw [dif_neg (show ¬(0 : Fin S1024x768.rank) ∈ dot_S1024x768_S2304x768_S1024x2304_1_1_0_0_n_n.lhsBatch by decide), dif_pos (show (0 : Fin S1024x768.rank) ∈ dot_S1024x768_S2304x768_S1024x2304_1_1_0_0_n_n.lhsNonContracting by decide)]
  rfl

/-- The left operand's feature is the contracted one. -/
theorem lhsFeat0 (i : S1024x2304.Idx) (q : dot_S1024x768_S2304x768_S1024x2304_1_1_0_0_n_n.contr.Idx) :
    (dot_S1024x768_S2304x768_S1024x2304_1_1_0_0_n_n.lhsIdx i q 1).val = (q ⟨0, by decide⟩).val :=
  dot_S1024x768_S2304x768_S1024x2304_1_1_0_0_n_n.lhsIdx_val_of_single rfl i q

/-- The right operand's row is the result's column. -/
theorem rhsRow0 (i : S1024x2304.Idx) (q : dot_S1024x768_S2304x768_S1024x2304_1_1_0_0_n_n.contr.Idx) :
    (dot_S1024x768_S2304x768_S1024x2304_1_1_0_0_n_n.rhsIdx i q 0).val = (i 1).val := by
  unfold DotDims.rhsIdx
  rw [dif_neg (show ¬(0 : Fin S2304x768.rank) ∈ dot_S1024x768_S2304x768_S1024x2304_1_1_0_0_n_n.rhsBatch by decide), dif_pos (show (0 : Fin S2304x768.rank) ∈ dot_S1024x768_S2304x768_S1024x2304_1_1_0_0_n_n.rhsNonContracting by decide)]
  rfl

/-- The right operand's feature is the contracted one. -/
theorem rhsFeat0 (i : S1024x2304.Idx) (q : dot_S1024x768_S2304x768_S1024x2304_1_1_0_0_n_n.contr.Idx) :
    (dot_S1024x768_S2304x768_S1024x2304_1_1_0_0_n_n.rhsIdx i q 1).val = (q ⟨0, by decide⟩).val :=
  dot_S1024x768_S2304x768_S1024x2304_1_1_0_0_n_n.rhsIdx_val_of_single rfl i q

/-- Entry (r, f) of a block's product: row r of the block times row f of the weight, summed over the 768 features. -/
theorem blockProduct0_apply (x0 : Vec Ideal S1024x768 .bf16) (x1 : Vec Ideal S2304x768 .bf16) (r : Fin 1024) (f : Fin 2304) :
    k0_pay1 (F := Ideal) x0 x1 (ix2 r f) = ∑ k : Fin 768, x0 (ix2 r k) * x1 (ix2 f k) := by
  unfold k0_pay1
  rw [truncf_apply, shapeCast_self, shapeCast_self]
  refine (Ideal.matmul_constant_zero_apply (φ₁ := .bf16) (φ₂ := .bf16) dot_S1024x768_S2304x768_S1024x2304_1_1_0_0_n_n none x0 x1 (ix2 r f)).trans ?_
  rw [← Equiv.sum_comp (contrEquiv1 dot_S1024x768_S2304x768_S1024x2304_1_1_0_0_n_n 768 rfl rfl).symm]
  refine Finset.sum_congr rfl fun k _ => ?_
  have hk := contrEquiv1_symm_val dot_S1024x768_S2304x768_S1024x2304_1_1_0_0_n_n 768 rfl rfl k
  have el : dot_S1024x768_S2304x768_S1024x2304_1_1_0_0_n_n.lhsIdx (ix2 r f) ((contrEquiv1 dot_S1024x768_S2304x768_S1024x2304_1_1_0_0_n_n 768 rfl rfl).symm k) = ix2 r k := funext fun a => Fin.ext (by
    match a with
    | ⟨0, _⟩ => exact lhsRow0 _ _
    | ⟨1, _⟩ => exact (lhsFeat0 _ _).trans hk)
  have er : dot_S1024x768_S2304x768_S1024x2304_1_1_0_0_n_n.rhsIdx (ix2 r f) ((contrEquiv1 dot_S1024x768_S2304x768_S1024x2304_1_1_0_0_n_n 768 rfl rfl).symm k) = ix2 f k := funext fun a => Fin.ext (by
    match a with
    | ⟨0, _⟩ => exact rhsRow0 _ _
    | ⟨1, _⟩ => exact (rhsFeat0 _ _).trans hk)
  rw [el, er]

/-! ## The whole product -/

/-- The product of a 4096 × 768 array with the transposed 2304 × 768 weight, index by index. -/
def product0 (A : S4096x768.Idx → EReal) (W : S2304x768.Idx → EReal) : S4096x2304.Idx → EReal :=
  fun i => ∑ k : Fin 768, A (ix2 ⟨(i 0).val, (i 0).isLt⟩ k) * W (ix2 ⟨(i 1).val, (i 1).isLt⟩ k)

/-- The whole product read at an index. -/
theorem product0_apply (A : S4096x768.Idx → EReal) (W : S2304x768.Idx → EReal) (i : S4096x2304.Idx) :
    product0 A W i = ∑ k : Fin 768, A (ix2 ⟨(i 0).val, (i 0).isLt⟩ k) * W (ix2 ⟨(i 1).val, (i 1).isLt⟩ k) := rfl

/-- A block of 1024 rows starting at row b · 1024, multiplied with the whole weight, is the same rows of the whole product. -/
theorem blockProduct0_eq (A : S4096x768.Idx → EReal) (W : S2304x768.Idx → EReal)
    (x0 : Vec Ideal S1024x768 .bf16) (x1 : Vec Ideal S2304x768 .bf16) (b : Nat) (hb : b < 4)
    (hx0 : ∀ (r : Fin 1024) (k : Fin 768), x0 (ix2 r k) = A (ix2 (⟨b * 1024 + r.val, by omega⟩ : Fin 4096) k))
    (hx1 : ∀ (f : Fin 2304) (k : Fin 768), x1 (ix2 f k) = W (ix2 f k))
    (y : S1024x2304.Idx) (i : S4096x2304.Idx) (hi0 : (i 0).val = b * 1024 + (y 0).val) (hi1 : (i 1).val = (y 1).val) :
    k0_pay1 (F := Ideal) x0 x1 y = product0 A W i := by
  obtain ⟨r, f, rfl⟩ : ∃ (r : Fin 1024) (f : Fin 2304), y = ix2 r f := ⟨y 0, y 1, eq_ix2 y⟩
  rw [blockProduct0_apply]
  unfold product0
  refine Finset.sum_congr rfl fun k _ => ?_
  rw [hx0, hx1]
  have e0 : (⟨b * 1024 + r.val, by omega⟩ : Fin 4096) = ⟨(i 0).val, (i 0).isLt⟩ := Fin.ext hi0.symm
  have e1 : f = (⟨(i 1).val, (i 1).isLt⟩ : Fin 2304) := Fin.ext hi1.symm
  rw [e0, ← e1]

/-! ## From the blocks to the array -/

theorem zeroOffsets0 : (![0, 0] : Fin 2 → Nat) = fun _ => 0 := funext fun a => by fin_cases a <;> rfl

/-- The printed index maps over the 4 grid points: the input block and the output block of point t are both block t
    of their arrays, and the weight is always block 0. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What grid point t writes back is block t of the whole product of the arrays as the region finds them. -/
theorem written0_eq (c : Dev nD) (t : Fin cfg0.N) :
    (dat0 (F := Ideal) V c).flushed 2 t = ((cfg0.win 2).blk t).view.read (Elt Ideal) (product0 (V c main_v3) (V c main_v1)) := by
  show (cfg0.win 2).cut (grid0.coords t) ((dat0 V c).after 2 t) = _
  rw [after0_2]
  unfold out0_2
  rw [View.canon_unit_zero zeroOffsets0]
  simp only [View.ld_unit_zero (S := S1024x768) zeroOffsets0, View.ld_unit_zero (S := S2304x768) zeroOffsets0]
  obtain ⟨e0, e1, e2, e3, e4, e5⟩ := blockIndex0 t
  have ht : t.val < 4 := t.isLt
  funext j
  show k0_pay1 (F := Ideal) (iblk0 V c 0 t) (iblk0 V c 1 t) j = product0 (V c main_v3) (V c main_v1) (((cfg0.win 2).blk t).view.emb j)
  refine blockProduct0_eq (V c main_v3) (V c main_v1) (iblk0 V c 0 t) (iblk0 V c 1 t) t.val ht ?_ ?_ j (((cfg0.win 2).blk t).view.emb j) ?_ ?_
  · intro r k
    show V c main_v3 (((cfg0.win 0).blk t).view.emb (ix2 r k)) = V c main_v3 (ix2 (⟨t.val * 1024 + r.val, by omega⟩ : Fin 4096) k)
    refine congrArg (V c main_v3) (funext fun a => Fin.ext ?_)
    match a with
    | ⟨0, _⟩ => show win0_0.index t (0 : Fin 2) * 1024 + 1 * r.val = t.val * 1024 + r.val; omega
    | ⟨1, _⟩ => show win0_0.index t (1 : Fin 2) * 768 + 1 * k.val = k.val; omega
  · intro f k
    show V c main_v1 (((cfg0.win 1).blk t).view.emb (ix2 f k)) = V c main_v1 (ix2 f k)
    refine congrArg (V c main_v1) (funext fun a => Fin.ext ?_)
    match a with
    | ⟨0, _⟩ => show win0_1.index t (0 : Fin 2) * 2304 + 1 * f.val = f.val; omega
    | ⟨1, _⟩ => show win0_1.index t (1 : Fin 2) * 768 + 1 * k.val = k.val; omega
  · show win0_2.index t (0 : Fin 2) * 1024 + 1 * (j 0).val = t.val * 1024 + (j 0).val; omega
  · show win0_2.index t (1 : Fin 2) * 2304 + 1 * (j 1).val = (j 1).val; omega

/-- An index of the result array is in point t's block iff each coordinate is in the block's range on its axis. -/
theorem mem_block0 (t : Fin cfg0.N) (i : S4096x2304.Idx) :
    i ∈ ((cfg0.win 2).blk t).view.set ↔ ∀ a : Fin 2, win0_2.index t a * S1024x2304.size a ≤ (i a).val ∧ (i a).val < win0_2.index t a * S1024x2304.size a + S1024x2304.size a := by
  show i ∈ ((View.whole main_v4).slice (win0_2.rect t)).set ↔ _
  rw [View.set_slice_whole, Rect.mem_set_unit]
  exact Iff.rfl

/-- Every row r of the result is in the block of point r / 1024. -/
theorem covered0 (i : S4096x2304.Idx) : ∃ t : Fin cfg0.N, (cfg0.win 2).flush t = true ∧ i ∈ ((cfg0.win 2).blk t).view.set := by
  have hi0 : (i 0).val < 4096 := (i 0).isLt
  have hi1 : (i 1).val < 2304 := (i 1).isLt
  have hN : (i 0).val / 1024 < cfg0.N := by show (i 0).val / 1024 < 4; omega
  refine ⟨⟨(i 0).val / 1024, hN⟩, flush0_2 _, ?_⟩
  obtain ⟨-, -, -, -, e4, e5⟩ := blockIndex0 ⟨(i 0).val / 1024, hN⟩
  have e4' : win0_2.index ⟨(i 0).val / 1024, hN⟩ (0 : Fin 2) = (i 0).val / 1024 := e4
  rw [mem_block0]
  intro a
  match a with
  | ⟨0, _⟩ => show win0_2.index ⟨(i 0).val / 1024, hN⟩ (0 : Fin 2) * 1024 ≤ (i 0).val ∧ (i 0).val < win0_2.index ⟨(i 0).val / 1024, hN⟩ (0 : Fin 2) * 1024 + 1024; omega
  | ⟨1, _⟩ => show win0_2.index ⟨(i 0).val / 1024, hN⟩ (1 : Fin 2) * 2304 ≤ (i 1).val ∧ (i 1).val < win0_2.index ⟨(i 0).val / 1024, hN⟩ (1 : Fin 2) * 2304 + 2304; omega

/-- After the 4 grid points the result array is the whole product of the arrays as the region finds them. -/
theorem region0_array (c : Dev nD) :
    (dat0 (F := Ideal) V c).arrAt 2 cfg0.N = product0 (V c main_v3) (V c main_v1) :=
  (dat0 (F := Ideal) V c).arrAt_eq_of_cover 2 (product0 (V c main_v3) (V c main_v1)) (fun t _ => written0_eq V c t) covered0

end

end Cert.Attn.Tiled

end
-- ==== Proof.TiledProduct2.lean ====
/-
  The output projection of the idealized kernel: a tiled matrix product.

  The array of 4096 rows and 768 features is cut into 8 blocks of 512 rows; grid point t multiplies block t with
  the transposed 768 × 768 weight, which every point reads whole, and writes block t of the 4096 × 768 result.
  On the extended reals the product into a zero accumulator is the plain sum over the 768 contracted features, so
  after the 8 points the result array is the whole matrix product, index by index.
-/
import proofs.«177644_j16097537425671_2_alg».proof.Proof.Gen.KernelIdeal.Frame
import Idealize.ShloMosaic.Lib.Pipeline.Value
import Idealize.ShloMosaic.Lib.ValueIdx
import Idealize.ShloMosaic.PureOps.Ideal.Laws

noncomputable section

namespace Cert.Attn.Tiled

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's product, at an index -/

/-- The left operand's row is the result's row. -/
theorem lhsRow2 (i : S512x768.Idx) (q : dot_S512x768_S768x768_S512x768_1_1_0_0_n_n.contr.Idx) :
    (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl

/-- The left operand's feature is the contracted one. -/
theorem lhsFeat2 (i : S512x768.Idx) (q : dot_S512x768_S768x768_S512x768_1_1_0_0_n_n.contr.Idx) :
    (dot_S512x768_S768x768_S512x768_1_1_0_0_n_n.lhsIdx i q 1).val = (q ⟨0, by decide⟩).val :=
  dot_S512x768_S768x768_S512x768_1_1_0_0_n_n.lhsIdx_val_of_single rfl i q

/-- The right operand's row is the result's column. -/
theorem rhsRow2 (i : S512x768.Idx) (q : dot_S512x768_S768x768_S512x768_1_1_0_0_n_n.contr.Idx) :
    (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl

/-- The right operand's feature is the contracted one. -/
theorem rhsFeat2 (i : S512x768.Idx) (q : dot_S512x768_S768x768_S512x768_1_1_0_0_n_n.contr.Idx) :
    (dot_S512x768_S768x768_S512x768_1_1_0_0_n_n.rhsIdx i q 1).val = (q ⟨0, by decide⟩).val :=
  dot_S512x768_S768x768_S512x768_1_1_0_0_n_n.rhsIdx_val_of_single rfl i q

/-- Entry (r, f) of a block's product: row r of the block times row f of the weight, summed over the 768 features. -/
theorem blockProduct2_apply (x0 : Vec Ideal S512x768 .bf16) (x1 : Vec Ideal S768x768 .bf16) (r : Fin 512) (f : Fin 768) :
    k2_pay1 (F := Ideal) x0 x1 (ix2 r f) = ∑ k : Fin 768, x0 (ix2 r k) * x1 (ix2 f k) := by
  unfold k2_pay1
  rw [shapeCast_self, shapeCast_self]
  refine (Ideal.matmul_constant_zero_apply (φ₁ := .bf16) (φ₂ := .bf16) dot_S512x768_S768x768_S512x768_1_1_0_0_n_n none x0 x1 (ix2 r f)).trans ?_
  rw [← Equiv.sum_comp (contrEquiv1 dot_S512x768_S768x768_S512x768_1_1_0_0_n_n 768 rfl rfl).symm]
  refine Finset.sum_congr rfl fun k _ => ?_
  have hk := contrEquiv1_symm_val dot_S512x768_S768x768_S512x768_1_1_0_0_n_n 768 rfl rfl k
  have el : dot_S512x768_S768x768_S512x768_1_1_0_0_n_n.lhsIdx (ix2 r f) ((contrEquiv1 dot_S512x768_S768x768_S512x768_1_1_0_0_n_n 768 rfl rfl).symm k) = ix2 r k := funext fun a => Fin.ext (by
    match a with
    | ⟨0, _⟩ => exact lhsRow2 _ _
    | ⟨1, _⟩ => exact (lhsFeat2 _ _).trans hk)
  have er : dot_S512x768_S768x768_S512x768_1_1_0_0_n_n.rhsIdx (ix2 r f) ((contrEquiv1 dot_S512x768_S768x768_S512x768_1_1_0_0_n_n 768 rfl rfl).symm k) = ix2 f k := funext fun a => Fin.ext (by
    match a with
    | ⟨0, _⟩ => exact rhsRow2 _ _
    | ⟨1, _⟩ => exact (rhsFeat2 _ _).trans hk)
  rw [el, er]

/-! ## The whole product -/

/-- The product of a 4096 × 768 array with the transposed 768 × 768 weight, index by index. -/
def product2 (A : S4096x768.Idx → EReal) (W : S768x768.Idx → EReal) : S4096x768.Idx → EReal :=
  fun i => ∑ k : Fin 768, A (ix2 ⟨(i 0).val, (i 0).isLt⟩ k) * W (ix2 ⟨(i 1).val, (i 1).isLt⟩ k)

/-- The whole product read at an index. -/
theorem product2_apply (A : S4096x768.Idx → EReal) (W : S768x768.Idx → EReal) (i : S4096x768.Idx) :
    product2 A W i = ∑ k : Fin 768, A (ix2 ⟨(i 0).val, (i 0).isLt⟩ k) * W (ix2 ⟨(i 1).val, (i 1).isLt⟩ k) := rfl

/-- A block of 512 rows starting at row b · 512, multiplied with the whole weight, is the same rows of the whole product. -/
theorem blockProduct2_eq (A : S4096x768.Idx → EReal) (W : S768x768.Idx → EReal)
    (x0 : Vec Ideal S512x768 .bf16) (x1 : Vec Ideal S768x768 .bf16) (b : Nat) (hb : b < 8)
    (hx0 : ∀ (r : Fin 512) (k : Fin 768), x0 (ix2 r k) = A (ix2 (⟨b * 512 + r.val, by omega⟩ : Fin 4096) k))
    (hx1 : ∀ (f : Fin 768) (k : Fin 768), x1 (ix2 f k) = W (ix2 f k))
    (y : S512x768.Idx) (i : S4096x768.Idx) (hi0 : (i 0).val = b * 512 + (y 0).val) (hi1 : (i 1).val = (y 1).val) :
    k2_pay1 (F := Ideal) x0 x1 y = product2 A W i := by
  obtain ⟨r, f, rfl⟩ : ∃ (r : Fin 512) (f : Fin 768), y = ix2 r f := ⟨y 0, y 1, eq_ix2 y⟩
  rw [blockProduct2_apply]
  unfold product2
  refine Finset.sum_congr rfl fun k _ => ?_
  rw [hx0, hx1]
  have e0 : (⟨b * 512 + r.val, by omega⟩ : Fin 4096) = ⟨(i 0).val, (i 0).isLt⟩ := Fin.ext hi0.symm
  have e1 : f = (⟨(i 1).val, (i 1).isLt⟩ : Fin 768) := Fin.ext hi1.symm
  rw [e0, ← e1]

/-! ## From the blocks to the array -/

theorem zeroOffsets2 : (![0, 0] : Fin 2 → Nat) = fun _ => 0 := funext fun a => by fin_cases a <;> rfl

/-- The printed index maps over the 8 grid points: the input block and the output block of point t are both block t
    of their arrays, and the weight is always block 0. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What grid point t writes back is block t of the whole product of the arrays as the region finds them. -/
theorem written2_eq (c : Dev nD) (t : Fin cfg2.N) :
    (dat2 (F := Ideal) V c).flushed 2 t = ((cfg2.win 2).blk t).view.read (Elt Ideal) (product2 (V c main_v12) (V c main_v2)) := by
  show (cfg2.win 2).cut (grid2.coords t) ((dat2 V c).after 2 t) = _
  rw [after2_2]
  unfold out2_2
  rw [View.canon_unit_zero zeroOffsets2]
  simp only [View.ld_unit_zero (S := S512x768) zeroOffsets2, View.ld_unit_zero (S := S768x768) zeroOffsets2]
  obtain ⟨e0, e1, e2, e3, e4, e5⟩ := blockIndex2 t
  have ht : t.val < 8 := t.isLt
  funext j
  show k2_pay1 (F := Ideal) (iblk2 V c 0 t) (iblk2 V c 1 t) j = product2 (V c main_v12) (V c main_v2) (((cfg2.win 2).blk t).view.emb j)
  refine blockProduct2_eq (V c main_v12) (V c main_v2) (iblk2 V c 0 t) (iblk2 V c 1 t) t.val ht ?_ ?_ j (((cfg2.win 2).blk t).view.emb j) ?_ ?_
  · intro r k
    show V c main_v12 (((cfg2.win 0).blk t).view.emb (ix2 r k)) = V c main_v12 (ix2 (⟨t.val * 512 + r.val, by omega⟩ : Fin 4096) k)
    refine congrArg (V c main_v12) (funext fun a => Fin.ext ?_)
    match a with
    | ⟨0, _⟩ => show win2_0.index t (0 : Fin 2) * 512 + 1 * r.val = t.val * 512 + r.val; omega
    | ⟨1, _⟩ => show win2_0.index t (1 : Fin 2) * 768 + 1 * k.val = k.val; omega
  · intro f k
    show V c main_v2 (((cfg2.win 1).blk t).view.emb (ix2 f k)) = V c main_v2 (ix2 f k)
    refine congrArg (V c main_v2) (funext fun a => Fin.ext ?_)
    match a with
    | ⟨0, _⟩ => show win2_1.index t (0 : Fin 2) * 768 + 1 * f.val = f.val; omega
    | ⟨1, _⟩ => show win2_1.index t (1 : Fin 2) * 768 + 1 * k.val = k.val; omega
  · show win2_2.index t (0 : Fin 2) * 512 + 1 * (j 0).val = t.val * 512 + (j 0).val; omega
  · show win2_2.index t (1 : Fin 2) * 768 + 1 * (j 1).val = (j 1).val; omega

/-- An index of the result array is in point t's block iff each coordinate is in the block's range on its axis. -/
theorem mem_block2 (t : Fin cfg2.N) (i : S4096x768.Idx) :
    i ∈ ((cfg2.win 2).blk t).view.set ↔ ∀ a : Fin 2, win2_2.index t a * S512x768.size a ≤ (i a).val ∧ (i a).val < win2_2.index t a * S512x768.size a + S512x768.size a := by
  show i ∈ ((View.whole main_v13).slice (win2_2.rect t)).set ↔ _
  rw [View.set_slice_whole, Rect.mem_set_unit]
  exact Iff.rfl

/-- Every row r of the result is in the block of point r / 512. -/
theorem covered2 (i : S4096x768.Idx) : ∃ t : Fin cfg2.N, (cfg2.win 2).flush t = true ∧ i ∈ ((cfg2.win 2).blk t).view.set := by
  have hi0 : (i 0).val < 4096 := (i 0).isLt
  have hi1 : (i 1).val < 768 := (i 1).isLt
  have hN : (i 0).val / 512 < cfg2.N := by show (i 0).val / 512 < 8; omega
  refine ⟨⟨(i 0).val / 512, hN⟩, flush2_2 _, ?_⟩
  obtain ⟨-, -, -, -, e4, e5⟩ := blockIndex2 ⟨(i 0).val / 512, hN⟩
  have e4' : win2_2.index ⟨(i 0).val / 512, hN⟩ (0 : Fin 2) = (i 0).val / 512 := e4
  rw [mem_block2]
  intro a
  match a with
  | ⟨0, _⟩ => show win2_2.index ⟨(i 0).val / 512, hN⟩ (0 : Fin 2) * 512 ≤ (i 0).val ∧ (i 0).val < win2_2.index ⟨(i 0).val / 512, hN⟩ (0 : Fin 2) * 512 + 512; omega
  | ⟨1, _⟩ => show win2_2.index ⟨(i 0).val / 512, hN⟩ (1 : Fin 2) * 768 ≤ (i 1).val ∧ (i 1).val < win2_2.index ⟨(i 0).val / 512, hN⟩ (1 : Fin 2) * 768 + 768; omega

/-- After the 8 grid points the result array is the whole product of the arrays as the region finds them. -/
theorem region2_array (c : Dev nD) :
    (dat2 (F := Ideal) V c).arrAt 2 cfg2.N = product2 (V c main_v12) (V c main_v2) :=
  (dat2 (F := Ideal) V c).arrAt_eq_of_cover 2 (product2 (V c main_v12) (V c main_v2)) (fun t _ => written2_eq V c t) covered2

end

end Cert.Attn.Tiled

end
-- ==== Proof.Spec.lean ====
/-
  Multi-head self-attention over a batch of 2 sequences of 2048 rows and 768 features, 12 heads of width 64,
  written once, index by index, on the extended reals.

  A row's fused projection is its product with the transposed 2304 × 768 weight; feature h·192 + d of it is the
  query coordinate d of head h, feature h·192 + 64 + d the key coordinate, feature h·192 + 128 + d the value
  coordinate. A head's scores are the query–key inner products times the scale; a row of scores is turned into
  weights by subtracting the row's maximum, exponentiating and dividing by the row's sum; the head's context is
  the weights' product with the values. The contexts of the 12 heads, laid side by side (feature h·64 + d), are
  multiplied with the transposed 768 × 768 output weight. The second result is the mean of the 12 heads' weights.
-/
import Idealize.ShloMosaic.PureOps.Ideal
import Idealize.ShloMosaic.Lib.ValueIdx

noncomputable section

open scoped BigOperators

namespace Cert.Attn

open Idealize.ShloMosaic Idealize.ShloMosaic.ValueIdx

/-- The three argument arrays' index types. -/
abbrev XIdx := (⟨3, ![2, 2048, 768]⟩ : Shape).Idx
abbrev WqIdx := (⟨2, ![2304, 768]⟩ : Shape).Idx
abbrev WoIdx := (⟨2, ![768, 768]⟩ : Shape).Idx

/-- Feature of the fused projection holding query coordinate `d` of head `h`. -/
def featQ (h : Fin 12) (d : Fin 64) : Fin 2304 := ⟨h.val * 192 + d.val, by omega⟩
/-- Feature holding key coordinate `d` of head `h`. -/
def featK (h : Fin 12) (d : Fin 64) : Fin 2304 := ⟨h.val * 192 + 64 + d.val, by omega⟩
/-- Feature holding value coordinate `d` of head `h`. -/
def featV (h : Fin 12) (d : Fin 64) : Fin 2304 := ⟨h.val * 192 + 128 + d.val, by omega⟩

/-- The scale of the scores: the binary32 word of one eighth. -/
def scale : EReal := Ideal.ofBits .f32 0x3E000000#32
/-- The seed of a row's maximum: the binary32 word of minus infinity. -/
def seed : EReal := Ideal.ofBits .f32 0xFF800000#32

variable (X : XIdx → EReal) (Wq : WqIdx → EReal) (Wo : WoIdx → EReal)

/-- Row `s` of sequence `b` times row `f` of the fused weight. -/
def proj (b : Fin 2) (s : Fin 2048) (f : Fin 2304) : EReal := ∑ k : Fin 768, X (ix3 b s k) * Wq (ix2 f k)

/-- Head `h`'s score of query row `q` against key row `k`. -/
def score (b : Fin 2) (h : Fin 12) (q k : Fin 2048) : EReal :=
  (∑ d : Fin 64, proj X Wq b q (featQ h d) * proj X Wq b k (featK h d)) * scale

/-- The maximum of a row of scores, folded from the seed. -/
def rowMax (b : Fin 2) (h : Fin 12) (q : Fin 2048) : EReal :=
  (Finset.univ : Finset (Fin 2048)).fold max seed (fun k => score X Wq b h q k)

/-- The exponential of a score less its row's maximum. -/
def expo (b : Fin 2) (h : Fin 12) (q k : Fin 2048) : EReal := Ideal.exp (score X Wq b h q k - rowMax X Wq b h q)

/-- The sum of a row of exponentials. -/
def denom (b : Fin 2) (h : Fin 12) (q : Fin 2048) : EReal := ∑ k : Fin 2048, expo X Wq b h q k

/-- The attention weight of key row `k` for query row `q` in head `h`. -/
def prob (b : Fin 2) (h : Fin 12) (q k : Fin 2048) : EReal := Ideal.div (expo X Wq b h q k) (denom X Wq b h q)

/-- Head `h`'s context of query row `q` at coordinate `d`. -/
def ctx (b : Fin 2) (h : Fin 12) (q : Fin 2048) (d : Fin 64) : EReal :=
  ∑ k : Fin 2048, prob X Wq b h q k * proj X Wq b k (featV h d)

/-- The heads' contexts side by side: feature `c` is coordinate `c % 64` of head `c / 64`. -/
def ctxFlat (b : Fin 2) (s : Fin 2048) (c : Fin 768) : EReal :=
  ctx X Wq b ⟨c.val / 64, by omega⟩ s ⟨c.val % 64, by omega⟩

/-- The first result: the contexts times the transposed output weight. -/
def out (b : Fin 2) (s : Fin 2048) (f : Fin 768) : EReal := ∑ c : Fin 768, ctxFlat X Wq b s c * Wo (ix2 f c)

/-- The second result: the mean over the heads of the attention weights. -/
def meanProb (b : Fin 2) (q k : Fin 2048) : EReal := (∑ h : Fin 12, prob X Wq b h q k) * ((1 / 12 : ℝ) : EReal)

/-- The first result as an array. -/
def outArr : XIdx → EReal := fun i => out X Wq Wo ⟨(i 0).val, (i 0).isLt⟩ ⟨(i 1).val, (i 1).isLt⟩ ⟨(i 2).val, (i 2).isLt⟩

/-- The second result as an array. -/
def meanArr : (⟨3, ![2, 2048, 2048]⟩ : Shape).Idx → EReal :=
  fun i => meanProb X Wq ⟨(i 0).val, (i 0).isLt⟩ ⟨(i 1).val, (i 1).isLt⟩ ⟨(i 2).val, (i 2).isLt⟩

end Cert.Attn

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.LibRowMax.lean ====
/-
  The maximum along the last axis of an array, read at an index (general: any extents, no program).

  At the exact values the maximum of two numbers is the lattice maximum of the extended reals, which commutes and
  associates; so a maximum taken along one axis does not depend on the order in which the entries are met, and is the
  fold of `max`, from the starting value, over that axis's coordinates. Two spellings of it are read here: the
  maximum of an a × b matrix along its columns (one value per row), and the maximum of an m × a × b array along its
  last axis (one value per leading pair), the second in the form a whole-array reduction from a rank-0 starting
  value takes. A fold of `max` is never below the value it starts from, so taking the maximum with that value once
  more changes nothing.
-/
import Idealize.ShloMosaic.Lib.ValueIdx
import Idealize.ShloMosaic.PureOps.Ideal.Laws

noncomputable section

namespace Cert.RowMax

open Idealize.ShloMosaic Idealize.ShloMosaic.ValueIdx

/-- At the exact values, the maximum of an a × b matrix along its columns is, at row r, the fold of `max` from the
    starting value over the entries of row r. -/
theorem laneMax_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun j => v (ix2 r j)) := by
  refine (Ideal.multiReduction_maximumf_single v acc h hφ hacc (ix1 r)).trans ?_
  refine Finset.fold_congr fun j _ => congrArg v ?_
  funext ax
  match ax with
  | ⟨0, _⟩ => exact Fin.ext rfl
  | ⟨1, _⟩ => exact Fin.ext rfl

/-- At the exact values, the maximum of an m × a × b array along its last axis, started from the one entry of a
    starting array, is at (p, q) the fold of `max` from that entry over the entries (p, q, ·). -/
theorem hostMaxLast_apply {m a b : ℕ} {u : Shape} (x : (⟨3, ![m, a, b]⟩ : Shape).Idx → Ideal .f32)
    (init : u.Idx → Ideal .f32) (h' : (⟨3, ![m, a, b]⟩ : Shape).ReducesTo [2] ⟨2, ![m, a]⟩)
    (h : (⟨3, ![m, a, b]⟩ : Shape).Reduces [2] ⟨2, ![m, a]⟩) (hu : 0 < u.numel) (p : Fin m) (q : Fin a) :
    Host.reduce (FloatOps.maximumf (F := Ideal) (φ := .f32)) x init h' hu (ix2 p q)
      = (Finset.univ : Finset (Fin b)).fold max (init (Shape.Idx.first hu)) (fun j => x (ix3 p q j)) := by
  refine (Host.reduce_eq_fold_single (FloatOps.maximumf (F := Ideal) (φ := .f32)) x init h' h hu (ix2 p q)).trans ?_
  refine Finset.fold_congr fun j _ => congrArg x ?_
  funext ax
  match ax with
  | ⟨0, _⟩ => exact Fin.ext rfl
  | ⟨1, _⟩ => exact Fin.ext rfl
  | ⟨2, _⟩ => exact Fin.ext rfl

/-- A fold of `max` is at least its starting value, so the maximum of the two is the fold. -/
theorem max_init_fold {ι : Type} (s : Finset ι) (init : EReal) (f : ι → EReal) :
    max init (s.fold max init f) = s.fold max init f :=
  max_eq_right ((Finset.le_fold_max init).mpr (Or.inl le_rfl))

end Cert.RowMax

end
-- ==== Proof.LibMatmulTransposedRhs.lean ====
/-
  A matrix product with the right operand given row by row, read at one entry, over the extended reals.

  For any extents M, K, N: the product of an M×K matrix and an N×K matrix in which the left operand's axis 1 is
  contracted with the right operand's axis 1 (no batch axes) — the left matrix times the transpose of the right one —,
  accumulated into the zero matrix, is at entry (p, n) the sum over k of left(p, k) · right(n, k). The accumulator
  contributes 0 + ·, the contraction index is one coordinate k, and the operand indices at (p, n) and k are (p, k) and
  (n, k).
-/
import Idealize.ShloMosaic.Lib.ValueIdx
import Idealize.ShloMosaic.PureOps.Ideal.Laws

namespace Cert.LibMatmulTransposedRhs

open Idealize.ShloMosaic Idealize.ShloMosaic.ValueIdx

/-- The left operand's index at result entry `(p, n)` and contraction coordinate `k` is `(p, k)`. -/
theorem lhsIdx_at {M K N : ℕ} (p : Fin M) (n : Fin N) (k : Fin K) :
    (DotDims.transposedRhs M K N).lhsIdx (ix2 p n) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl _ _).trans
        (contrEquiv1_symm_val (DotDims.transposedRhs M K N) K rfl rfl k))

/-- The right operand's index at result entry `(p, n)` and contraction coordinate `k` is `(n, k)`. -/
theorem rhsIdx_at {M K N : ℕ} (p : Fin M) (n : Fin N) (k : Fin K) :
    (DotDims.transposedRhs M K N).rhsIdx (ix2 p n) ((contrEquiv1 (DotDims.transposedRhs M K N) K rfl rfl).symm k) = ix2 n k :=
  funext fun a => Fin.ext (by
    match a with
    | ⟨0, _⟩ => rfl
    | ⟨1, _⟩ =>
      exact ((DotDims.transposedRhs M K N).rhsIdx_val_of_single rfl _ _).trans
        (contrEquiv1_symm_val (DotDims.transposedRhs M K N) K rfl rfl k))

/-- An M×K matrix times the transpose of an N×K matrix into the zero accumulator, at entry `(p, n)`:
    `∑ k, l (p, k) * r (n, k)`. -/
theorem matmul_zero_apply {M K N : ℕ} {φ₁ φ₂ : FTy} (prec : Option ContractPrecision)
    (l : FVec Ideal ⟨2, ![M, K]⟩ φ₁) (r : FVec Ideal ⟨2, ![N, K]⟩ φ₂) (p : Fin M) (n : Fin N) :
    matmul (DotDims.transposedRhs M K N) prec l r (constant (F := Ideal) ⟨2, ![M, N]⟩ .f32 0x00000000#32) (ix2 p n)
      = ∑ k : Fin K, l (ix2 p k) * r (ix2 n k) := by
  show FloatOps.matmul _ _ _ _ _ _ = _
  rw [Ideal.matmul_constant_zero_apply, ← Equiv.sum_comp (contrEquiv1 (DotDims.transposedRhs M K N) K rfl rfl).symm]
  refine Finset.sum_congr rfl fun k _ => ?_
  rw [lhsIdx_at, rhsIdx_at]

/-- The same for any dimension-numbers record `D` that is this one (a printed program names its own record). -/
theorem matmul_eq_zero_apply {M K N : ℕ} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (n : Fin N) :
    matmul D prec l r (constant (F := Ideal) ⟨2, ![M, N]⟩ .f32 0x00000000#32) (ix2 p n)
      = ∑ k : Fin K, l (ix2 p k) * r (ix2 n k) := by
  subst hD; exact matmul_zero_apply prec l r p n

end Cert.LibMatmulTransposedRhs
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibRelayout.lean ====
/-
  Re-laid arrays read at an index given by coordinates, for any extents: the shape casts and broadcasts that a
  projection of a [1, a, 1, b] or [1, 1, a, b] block to a matrix, a sum of an [a, 1, c] and a [1, b, c] array
  over [a, b, c], and the flattening of [a, b, c] to [a * b, c] (and back) go through.

  • `shapeCast_1a1b_ab_apply`, `shapeCast_11ab_ab_apply`: a block with unit axes cast to the matrix of its two
    real axes reads, at (i, j), the operand at (0, i, 0, j), respectively (0, 0, i, j).
  • `shapeCast_ab_a1b_apply`: a matrix cast to [a, 1, b] reads, at (i, z, j), the operand at (i, j).
  • `broadcastTo_a1c_abc_apply`, `broadcastTo_1bc_abc_apply`: an array with a unit middle (leading) axis broadcast
    along it reads, at (i, k, j), the operand at (i, 0, j), respectively (0, k, j).
  • `shapeCast_abc_nc_apply`, `shapeCast_nc_abc_apply`: [a, b, c] flattened to [n, c] with n = a * b, and back:
    row r = i * b + k of the flat array is row (i, k) of the other.
  Each is the library's general lemma for the operation with the row-major, or per-axis, arithmetic done.
-/
import Idealize.ShloMosaic.Lib.ValueLayout

namespace Cert.LibRelayout

open Idealize.ShloMosaic Idealize.ShloMosaic.ValueIdx

variable {α : Type}

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array flattened to `[n, c]` (so `n = a * b`) reads, at row `r = i * b + k` and column `j`, the
    operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) : shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` (so `n = a * b`) reads, at `(i, k, j)`, the operand at row
    `r = i * b + k` and column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) : shapeCast ⟨3, ![a, b, c]⟩ x h (ix3 i k j) = x (ix2 r j) :=
  shapeCast_apply x h _ _ (by
    rw [Shape.rowMajor_val_two, Shape.rowMajor_val_three]
    show r.val * c + j.val = (i.val * b + k.val) * c + j.val
    rw [hr])

end Cert.LibRelayout
-- ==== Proof.HeadPayload.lean ====
/-
  One attention head on the pieces a grid point loads.

  From a 256 × 64 piece of queries and a 2048 × 64 piece of keys: the scores are the inner products times the
  scale; a row's weights are exp(score − row maximum) divided by the row's sum of those exponentials. The running
  mean receives the weights times 1/12. The head's context is the weights times the 2048 × 64 piece of values.
  Each lemma reads one stored value of the kernel body, at one entry, as that formula on the extended reals.
-/
import proofs.«177644_j16097537425671_2_alg».proof.Proof.Gen.KernelIdeal.Skeleton
import proofs.«177644_j16097537425671_2_alg».proof.Proof.Spec
import proofs.«177644_j16097537425671_2_alg».proof.Proof.LibColumn
import proofs.«177644_j16097537425671_2_alg».proof.Proof.LibRowMax
import proofs.«177644_j16097537425671_2_alg».proof.Proof.LibMatmulTransposedRhs
import proofs.«177644_j16097537425671_2_alg».proof.Proof.LibPlainMatmul
import proofs.«177644_j16097537425671_2_alg».proof.Proof.LibRelayout
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.Attn.Head

open Idealize.ShloMosaic Idealize.ShloMosaic.ValueIdx Cert.KernelIdeal Cert.KernelIdeal.Gen

/-- A 256 × 64 piece of queries and a 2048 × 64 piece of keys or values, each under two unit axes. -/
abbrev QPiece := (⟨4, ![1, 1, 256, 64]⟩ : Shape).Idx → EReal
abbrev KPiece := (⟨4, ![1, 1, 2048, 64]⟩ : Shape).Idx → EReal

/-- Score of query row `r` against key row `k`. -/
def pScore (q : QPiece) (k : KPiece) (r : Fin 256) (j : Fin 2048) : EReal :=
  (∑ d : Fin 64, q (ix4 (0 : Fin 1) (0 : Fin 1) r d) * k (ix4 (0 : Fin 1) (0 : Fin 1) j d)) * Cert.Attn.scale

/-- The maximum of row `r` of the scores, folded from the seed. -/
def pMax (q : QPiece) (k : KPiece) (r : Fin 256) : EReal :=
  (Finset.univ : Finset (Fin 2048)).fold max Cert.Attn.seed (fun j => pScore q k r j)

/-- exp(score − row maximum). -/
def pExp (q : QPiece) (k : KPiece) (r : Fin 256) (j : Fin 2048) : EReal := Ideal.exp (pScore q k r j - pMax q k r)

/-- The row's sum of exponentials. -/
def pDen (q : QPiece) (k : KPiece) (r : Fin 256) : EReal := ∑ j : Fin 2048, pExp q k r j

/-- The attention weight. -/
def pProb (q : QPiece) (k : KPiece) (r : Fin 256) (j : Fin 2048) : EReal := Ideal.div (pExp q k r j) (pDen q k r)

variable (v5 : Vec Ideal S1x1x256x64 .bf16) (v8 : Vec Ideal S1x1x2048x64 .bf16)

/-- The scores as the body computes them. -/
def scoreVec : FVec Ideal S256x2048 .f32 :=
  mulf (matmul dot_S256x64_S2048x64_S256x2048_1_1_0_0_n_n none (shapeCast S256x64 v5 shapeCasts_S1x1x256x64_S256x64 : FVec Ideal S256x64 .bf16)
      (shapeCast S2048x64 v8 shapeCasts_S1x1x2048x64_S2048x64 : FVec Ideal S2048x64 .bf16) (constant S256x2048 .f32 0x00000000#32))
    (broadcast S256x2048 (Scalar.ofBits .f32 0x3E000000#32))

theorem scoreVec_apply (r : Fin 256) (j : Fin 2048) : scoreVec v5 v8 (ix2 r j) = pScore v5 v8 r j := by
  unfold scoreVec pScore
  rw [mulf_apply, broadcast_apply, Cert.LibMatmulTransposedRhs.matmul_eq_zero_apply dot_S256x64_S2048x64_S256x2048_1_1_0_0_n_n rfl]
  refine congrArg₂ (· * ·) (Finset.sum_congr rfl fun d _ => ?_) rfl
  rw [Cert.LibRelayout.shapeCast_11ab_ab_apply, Cert.LibRelayout.shapeCast_11ab_ab_apply]

/-- The row maxima as the body computes them. -/
def maxVec : FVec Ideal S256 .f32 :=
  multiReduction .maximumf [1] S256 (scoreVec v5 v8) 0xFF800000#32 reduces_S256x2048_S256 (.inl rfl) rfl

theorem maxVec_apply (r : Fin 256) : maxVec v5 v8 (ix1 r) = pMax v5 v8 r := by
  unfold maxVec pMax
  refine (Cert.RowMax.laneMax_apply _ _ _ _ _ r).trans ?_
  simp only [scoreVec_apply]
  rfl

/-- The exponentials as the body computes them. -/
def expVec : FVec Ideal S256x2048 .f32 :=
  exp (subf (scoreVec v5 v8) (broadcastTo S256x2048 (shapeCast S256x1 (maxVec v5 v8) shapeCasts_S256_S256x1) broadcasts_S256x1_S256x2048))

theorem expVec_apply (r : Fin 256) (j : Fin 2048) : expVec v5 v8 (ix2 r j) = pExp v5 v8 r j := by
  unfold expVec pExp
  show Ideal.exp (scoreVec v5 v8 (ix2 r j) - broadcastTo S256x2048 (shapeCast S256x1 (maxVec v5 v8) shapeCasts_S256_S256x1) broadcasts_S256x1_S256x2048 (ix2 r j)) = _
  rw [scoreVec_apply, Cert.Column.broadcastTo_a1_ab_apply, Cert.Column.shapeCast_a_a1_apply, maxVec_apply]

/-- The row sums as the body computes them. -/
def denVec : FVec Ideal S256 .f32 :=
  multiReduction .add [1] S256 (expVec v5 v8) 0x00000000#32 reduces_S256x2048_S256 (.inl rfl) rfl

theorem denVec_apply (r : Fin 256) : denVec v5 v8 (ix1 r) = pDen v5 v8 r := by
  unfold denVec pDen
  refine (Cert.Column.laneSum_apply _ _ _ _ _ r).trans ?_
  simp only [expVec_apply]

/-- The body's weights are the piece's weights. -/
theorem pay5_apply (r : Fin 256) (j : Fin 2048) : k1_pay5 (F := Ideal) v5 v8 (ix2 r j) = pProb v5 v8 r j := by
  show Ideal.div (expVec v5 v8 (ix2 r j)) (broadcastTo S256x2048 (shapeCast S256x1 (denVec v5 v8) shapeCasts_S256_S256x1) broadcasts_S256x1_S256x2048 (ix2 r j)) = _
  rw [expVec_apply, Cert.Column.broadcastTo_a1_ab_apply, Cert.Column.shapeCast_a_a1_apply, denVec_apply]
  rfl

/-- The named twelfth is the rational 1/12. -/
theorem inv_12 : Named.named (F := Ideal) Cert.KernelIdeal.κ "inv_12" (φ := .f32) 0x3DAAAAAB#32 = ((1 / 12 : ℝ) : EReal) :=
  IdealRules.named_const.ideal_named_scalar _ _ _ _ rfl

/-- The running mean after a head: what it held plus the head's weights times 1/12. -/
theorem pay6_apply (v25 : Vec Ideal S256x2048 .f32) (r : Fin 256) (j : Fin 2048) :
    k1_pay6 (F := Ideal) v5 v8 v25 (ix2 r j) = v25 (ix2 r j) + pProb v5 v8 r j * ((1 / 12 : ℝ) : EReal) := by
  show shapeCast S256x2048 (addf v25 (mulf (k1_pay5 (F := Ideal) v5 v8) (broadcast S256x2048 (Named.named (F := Ideal) Cert.KernelIdeal.κ "inv_12" (φ := .f32) 0x3DAAAAAB#32)))) shapeCasts_S256x2048_S256x2048 (ix2 r j) = _
  rw [shapeCast_self, addf_apply, mulf_apply, broadcast_apply, pay5_apply, inv_12]

/-- The running mean starts at zero. -/
theorem pay3_apply (r : Fin 256) (j : Fin 2048) : k1_pay3 (F := Ideal) (ix2 r j) = 0 := by
  show shapeCast S256x2048 (broadcast S256x2048 (Scalar.ofBits (F := Ideal) .f32 0x00000000#32)) shapeCasts_S256x2048_S256x2048 (ix2 r j) = _
  rw [shapeCast_self, broadcast_apply]
  exact Ideal.ofBits_zero_f32

/-- The weights handed to the second product are the weights. -/
theorem pay7_apply (r : Fin 256) (j : Fin 2048) : k1_pay7 (F := Ideal) v5 v8 (ix2 r j) = pProb v5 v8 r j :=
  pay5_apply v5 v8 r j

/-- The piece of values without its two unit axes. -/
theorem pay4_apply (v11 : Vec Ideal S1x1x2048x64 .bf16) (j : Fin 2048) (d : Fin 64) :
    k1_pay4 (F := Ideal) v11 (ix2 j d) = v11 (ix4 (0 : Fin 1) (0 : Fin 1) j d) :=
  Cert.LibRelayout.shapeCast_11ab_ab_apply _ _ j d

/-- The mean written out: the running mean under a unit axis. -/
theorem pay2_apply (v : Vec Ideal S256x2048 .f32) (z : Fin 1) (r : Fin 256) (j : Fin 2048) :
    k1_pay2 (F := Ideal) v (ix3 z r j) = v (ix2 r j) := by
  show shapeCast S1x256x2048 v shapeCasts_S256x2048_S1x256x2048 (ix3 z r j) = _
  refine shapeCast_apply v _ _ _ ?_
  have hz : z.val = 0 := by omega
  rw [Shape.rowMajor_val_three, Shape.rowMajor_val_two]
  simp [hz]

/-- A head's context: weights (256 × 2048) times values (2048 × 64), stored under two unit axes. -/
theorem pay8_apply (v12 : FVec Ideal S2048x64 .bf16) (v32 : FVec Ideal S256x2048 .bf16) (z w : Fin 1) (r : Fin 256) (d : Fin 64) :
    k1_pay8 (F := Ideal) v12 v32 (constant S256x64 .f32 0x00000000#32) (ix4 z w r d) = ∑ j : Fin 2048, v32 (ix2 r j) * v12 (ix2 j d) := by
  show shapeCast S1x1x256x64 (truncf .bf16 (matmul dot_S256x2048_S2048x64_S256x64_1_0_0_1_n_n none v32 v12 (constant S256x64 .f32 0x00000000#32)) bitsLt_bf16_f32) shapeCasts_S256x64_S1x1x256x64 (ix4 z w r d) = _
  have hz : z.val = 0 := by omega
  have hw : w.val = 0 := by omega
  rw [shapeCast_apply _ _ (ix4 z w r d) (ix2 r d) (by rw [Shape.rowMajor_val_four, Shape.rowMajor_val_two]; simp [hz, hw])]
  rw [truncf_apply]
  exact Cert.LibPlainMatmul.matmul_eq_plain_zero_apply dot_S256x2048_S2048x64_S256x64_1_0_0_1_n_n rfl none v32 v12 r d

end Cert.Attn.Head

end
-- ==== Proof.AttnBlocks.lean ====
/-
  Attention on one grid point's blocks and on the whole arrays.

  A grid point (b, qi) holds rows qi·256 … qi·256 + 255 of the queries of sequence b for all 12 heads, and all 2048
  rows of that sequence's keys and values. Head h's pieces are the blocks at head coordinate h. The block
  functions below say what the point writes: each head's context for its 256 query rows, and the mean over the
  heads of the weights. The array functions say the same of the whole [2, 12, 2048, 64] arrays of queries, keys and
  values, row by row.
-/
import proofs.«177644_j16097537425671_2_alg».proof.Proof.HeadPayload

noncomputable section

open scoped BigOperators

namespace Cert.Attn

open Idealize.ShloMosaic Idealize.ShloMosaic.ValueIdx Cert.Attn.Head

/-- A grid point's block of queries, and of keys or values. -/
abbrev QBlock := (⟨4, ![1, 12, 256, 64]⟩ : Shape).Idx → EReal
abbrev KBlock := (⟨4, ![1, 12, 2048, 64]⟩ : Shape).Idx → EReal
/-- The whole array of queries, keys or values. -/
abbrev HeadArr := (⟨4, ![2, 12, 2048, 64]⟩ : Shape).Idx → EReal

/-- Head `h`'s piece of a block of queries. -/
def headQ (x : QBlock) (h : Fin 12) : QPiece :=
  fun y => x (ix4 (0 : Fin 1) h ⟨(y 2).val, (y 2).isLt⟩ ⟨(y 3).val, (y 3).isLt⟩)
/-- Head `h`'s piece of a block of keys or values. -/
def headK (x : KBlock) (h : Fin 12) : KPiece :=
  fun y => x (ix4 (0 : Fin 1) h ⟨(y 2).val, (y 2).isLt⟩ ⟨(y 3).val, (y 3).isLt⟩)

/-- What a grid point writes to the context array: head h, local row r, coordinate d. -/
def blockCtx (x0 : QBlock) (x1 x2 : KBlock) : QBlock := fun y =>
  ∑ j : Fin 2048, pProb (headQ x0 ⟨(y 1).val, (y 1).isLt⟩) (headK x1 ⟨(y 1).val, (y 1).isLt⟩) ⟨(y 2).val, (y 2).isLt⟩ j
    * x2 (ix4 (0 : Fin 1) ⟨(y 1).val, (y 1).isLt⟩ j ⟨(y 3).val, (y 3).isLt⟩)

/-- What a grid point writes to the mean-weight array: local row r, key row j. -/
def blockMean (x0 : QBlock) (x1 : KBlock) : (⟨3, ![1, 256, 2048]⟩ : Shape).Idx → EReal := fun y =>
  (∑ h : Fin 12, pProb (headQ x0 h) (headK x1 h) ⟨(y 1).val, (y 1).isLt⟩ ⟨(y 2).val, (y 2).isLt⟩) * ((1 / 12 : ℝ) : EReal)

variable (Q K V : HeadArr)

/-- Score of query row `q` against key row `k` in head `h` of sequence `b`. -/
def aScore (b : Fin 2) (h : Fin 12) (q k : Fin 2048) : EReal :=
  (∑ d : Fin 64, Q (ix4 b h q d) * K (ix4 b h k d)) * scale
def aMax (b : Fin 2) (h : Fin 12) (q : Fin 2048) : EReal :=
  (Finset.univ : Finset (Fin 2048)).fold max seed (fun k => aScore Q K b h q k)
def aExp (b : Fin 2) (h : Fin 12) (q k : Fin 2048) : EReal := Ideal.exp (aScore Q K b h q k - aMax Q K b h q)
def aDen (b : Fin 2) (h : Fin 12) (q : Fin 2048) : EReal := ∑ k : Fin 2048, aExp Q K b h q k
def aProb (b : Fin 2) (h : Fin 12) (q k : Fin 2048) : EReal := Ideal.div (aExp Q K b h q k) (aDen Q K b h q)
/-- A head's context. -/
def aCtx (b : Fin 2) (h : Fin 12) (q : Fin 2048) (d : Fin 64) : EReal := ∑ k : Fin 2048, aProb Q K b h q k * V (ix4 b h k d)
/-- The mean over the heads of the weights. -/
def aMean (b : Fin 2) (q k : Fin 2048) : EReal := (∑ h : Fin 12, aProb Q K b h q k) * ((1 / 12 : ℝ) : EReal)

/-- The context array. -/
def arrCtx : HeadArr := fun i =>
  aCtx Q K V ⟨(i 0).val, (i 0).isLt⟩ ⟨(i 1).val, (i 1).isLt⟩ ⟨(i 2).val, (i 2).isLt⟩ ⟨(i 3).val, (i 3).isLt⟩
/-- The mean-weight array. -/
def arrMean : (⟨3, ![2, 2048, 2048]⟩ : Shape).Idx → EReal := fun i =>
  aMean Q K ⟨(i 0).val, (i 0).isLt⟩ ⟨(i 1).val, (i 1).isLt⟩ ⟨(i 2).val, (i 2).isLt⟩

end Cert.Attn

end
-- ==== Proof.AttnBlockArray.lean ====
/-
  A grid point's attention, read on the whole arrays.

  Grid point (b, qi) holds rows qi·256 … qi·256 + 255 of the queries of sequence b and all of that sequence's keys and
  values. When its blocks are those rows of the arrays, every quantity of the point — score, row maximum,
  exponential, row sum, weight — at local row r is the array's at row qi·256 + r; hence the point's context and
  mean-weight blocks are the corresponding rows of the whole context and mean-weight arrays.
-/
import proofs.«177644_j16097537425671_2_alg».proof.Proof.AttnBlocks

noncomputable section

open scoped BigOperators

namespace Cert.Attn.Tiled

open Idealize.ShloMosaic Idealize.ShloMosaic.ValueIdx Cert.Attn Cert.Attn.Head

/-- Row r of the qi-th block of 256 query rows. -/
def qRow (qi : Fin 8) (r : Fin 256) : Fin 2048 := ⟨qi.val * 256 + r.val, by omega⟩

section
variable (x0 : QBlock) (x1 x2 : KBlock) (Q K Vl : HeadArr) (b : Fin 2) (qi : Fin 8)
variable (hq : ∀ (h : Fin 12) (r : Fin 256) (d : Fin 64), x0 (ix4 (0 : Fin 1) h r d) = Q (ix4 b h (qRow qi r) d))
variable (hk : ∀ (h : Fin 12) (j : Fin 2048) (d : Fin 64), x1 (ix4 (0 : Fin 1) h j d) = K (ix4 b h j d))
variable (hv : ∀ (h : Fin 12) (j : Fin 2048) (d : Fin 64), x2 (ix4 (0 : Fin 1) h j d) = Vl (ix4 b h j d))

include hq hk in
/-- The point's score at local row r is the array's at row qi·256 + r. -/
theorem score_eq (h : Fin 12) (r : Fin 256) (j : Fin 2048) :
    pScore (headQ x0 h) (headK x1 h) r j = aScore Q K b h (qRow qi r) j := by
  unfold pScore aScore
  refine congrArg (· * scale) (Finset.sum_congr rfl fun d _ => ?_)
  show x0 (ix4 (0 : Fin 1) h r d) * x1 (ix4 (0 : Fin 1) h j d) = _
  rw [hq, hk]

include hq hk in
/-- So are the row maxima, -/
theorem max_eq (h : Fin 12) (r : Fin 256) : pMax (headQ x0 h) (headK x1 h) r = aMax Q K b h (qRow qi r) := by
  unfold pMax aMax
  exact congrArg (fun f => (Finset.univ : Finset (Fin 2048)).fold max seed f) (funext fun j => score_eq x0 x1 Q K b qi hq hk h r j)

include hq hk in
/-- the exponentials, -/
theorem exp_eq (h : Fin 12) (r : Fin 256) (j : Fin 2048) :
    pExp (headQ x0 h) (headK x1 h) r j = aExp Q K b h (qRow qi r) j := by
  unfold pExp aExp
  rw [score_eq x0 x1 Q K b qi hq hk, max_eq x0 x1 Q K b qi hq hk]

include hq hk in
/-- the row sums -/
theorem den_eq (h : Fin 12) (r : Fin 256) : pDen (headQ x0 h) (headK x1 h) r = aDen Q K b h (qRow qi r) := by
  unfold pDen aDen
  exact Finset.sum_congr rfl fun j _ => exp_eq x0 x1 Q K b qi hq hk h r j

include hq hk in
/-- and the weights. -/
theorem prob_eq (h : Fin 12) (r : Fin 256) (j : Fin 2048) :
    pProb (headQ x0 h) (headK x1 h) r j = aProb Q K b h (qRow qi r) j := by
  unfold pProb aProb
  rw [exp_eq x0 x1 Q K b qi hq hk, den_eq x0 x1 Q K b qi hq hk]

include hq hk hv in
/-- The point's context block is rows qi·256 … of sequence b of the context array. -/
theorem blockCtx_eq (y : (⟨4, ![1, 12, 256, 64]⟩ : Shape).Idx) (i : (⟨4, ![2, 12, 2048, 64]⟩ : Shape).Idx)
    (hi0 : (i 0).val = b.val) (hi1 : (i 1).val = (y 1).val) (hi2 : (i 2).val = qi.val * 256 + (y 2).val) (hi3 : (i 3).val = (y 3).val) :
    blockCtx x0 x1 x2 y = arrCtx Q K Vl i := by
  have e0 : (⟨(i 0).val, (i 0).isLt⟩ : Fin 2) = b := Fin.ext hi0
  have e1 : (⟨(i 1).val, (i 1).isLt⟩ : Fin 12) = ⟨(y 1).val, (y 1).isLt⟩ := Fin.ext hi1
  have e2 : (⟨(i 2).val, (i 2).isLt⟩ : Fin 2048) = qRow qi ⟨(y 2).val, (y 2).isLt⟩ := Fin.ext hi2
  have e3 : (⟨(i 3).val, (i 3).isLt⟩ : Fin 64) = ⟨(y 3).val, (y 3).isLt⟩ := Fin.ext hi3
  unfold blockCtx arrCtx aCtx
  rw [e0, e1, e2, e3]
  refine Finset.sum_congr rfl fun j _ => ?_
  rw [prob_eq x0 x1 Q K b qi hq hk, hv]

include hq hk in
/-- The point's mean-weight block is rows qi·256 … of sequence b of the mean-weight array. -/
theorem blockMean_eq (y : (⟨3, ![1, 256, 2048]⟩ : Shape).Idx) (i : (⟨3, ![2, 2048, 2048]⟩ : Shape).Idx)
    (hi0 : (i 0).val = b.val) (hi1 : (i 1).val = qi.val * 256 + (y 1).val) (hi2 : (i 2).val = (y 2).val) :
    blockMean x0 x1 y = arrMean Q K i := by
  have e0 : (⟨(i 0).val, (i 0).isLt⟩ : Fin 2) = b := Fin.ext hi0
  have e1 : (⟨(i 1).val, (i 1).isLt⟩ : Fin 2048) = qRow qi ⟨(y 1).val, (y 1).isLt⟩ := Fin.ext hi1
  have e2 : (⟨(i 2).val, (i 2).isLt⟩ : Fin 2048) = ⟨(y 2).val, (y 2).isLt⟩ := Fin.ext hi2
  unfold blockMean arrMean aMean
  rw [e0, e1, e2]
  refine congrArg (· * ((1 / 12 : ℝ) : EReal)) (Finset.sum_congr rfl fun h _ => ?_)
  rw [prob_eq x0 x1 Q K b qi hq hk]

end

end Cert.Attn.Tiled

end
-- ==== Proof.LibCoveredRead.lean ====
/-
  Reading back a buffer that was last overwritten whole.

  A sequence of stores into a buffer, the last of which overwrites every index, leaves exactly that last store's
  payload: whatever the earlier stores were, a read of the whole buffer returns it.
-/
import Idealize.ShloMosaic.Lib.Pipeline.Value

namespace Idealize.ShloMosaic.View

open Idealize.ShloMosaic

variable {Val : EltTy → Type} {S : Shape} {e : EltTy}

/-- A read of the whole buffer after a list of stores whose last one (the head of the list) is whole reads that
    store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.LibHeadMean.lean ====
/-
  Averaging by accumulation, on the extended reals.

  For a real c ≥ 0 the map x ↦ x · c distributes over every sum of extended reals, infinite terms or not. So an
  accumulator that starts at 0 and receives p(0)·c, p(1)·c, …, p(11)·c in turn ends at (p(0) + … + p(11)) · c.
-/
import Mathlib.Data.EReal.Operations
import Mathlib.Algebra.BigOperators.Fin

open scoped BigOperators

namespace Cert.Attn

/-- Multiplying on the right by a non-negative real distributes over a sum of two extended reals. -/
theorem add_mul_coe_of_nonneg (a b : EReal) {c : ℝ} (hc : 0 ≤ c) :
    (a + b) * (c : EReal) = a * (c : EReal) + b * (c : EReal) :=
  EReal.right_distrib_of_nonneg_of_ne_top (EReal.coe_nonneg.mpr hc) (EReal.coe_ne_top c) a b

/-- … and over every finite sum. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih => rw [Finset.sum_insert ha, Finset.sum_insert ha, add_mul_coe_of_nonneg _ _ hc, ih]

/-- Twelve terms accumulated one by one from zero, each times c, are the twelve terms' sum times c. -/
theorem accumulate_twelve (p : Fin 12 → EReal) {c : ℝ} (hc : 0 ≤ c) :
    ((((((((((((0 + p 0 * (c : EReal)) + p 1 * (c : EReal)) + p 2 * (c : EReal)) + p 3 * (c : EReal))
      + p 4 * (c : EReal)) + p 5 * (c : EReal)) + p 6 * (c : EReal)) + p 7 * (c : EReal)) + p 8 * (c : EReal))
      + p 9 * (c : EReal)) + p 10 * (c : EReal)) + p 11 * (c : EReal))
      = (∑ h : Fin 12, p h) * (c : EReal) := by
  rw [sum_mul_coe_of_nonneg _ _ hc]
  simp only [Fin.sum_univ_castSucc, Fin.sum_univ_zero]
  rfl

end Cert.Attn
-- ==== Proof.Region1Body.lean ====
/-
  What the attention body leaves in a grid point's two output blocks.

  The body zeroes a running mean, then for each of the 12 heads in turn computes the head's weights from its pieces
  of the query and key blocks, adds the weights times 1/12 to the running mean, and stores the weights' product
  with the head's piece of the value block into the head's slice of the context block; last it copies the running
  mean to the mean block. Read back: the context block is `blockCtx` of the three input blocks and the mean block is
  `blockMean` of the first two (twelve terms accumulated from zero are the twelve terms' sum, times 1/12).
-/
import proofs.«177644_j16097537425671_2_alg».proof.Proof.Gen.KernelIdeal.Frame
import proofs.«177644_j16097537425671_2_alg».proof.Proof.AttnBlocks
import proofs.«177644_j16097537425671_2_alg».proof.Proof.LibCoveredRead
import proofs.«177644_j16097537425671_2_alg».proof.Proof.LibHeadMean

set_option maxRecDepth 16384

noncomputable section

open scoped BigOperators

namespace Cert.Attn.Body

open Idealize.ShloMosaic Idealize.ShloMosaic.TcCoe Idealize.ShloMosaic.Tactic Idealize.SL.Sem Idealize.ShloMosaic.ValueIdx
open Cert.KernelIdeal Cert.KernelIdeal.Gen Cert.Attn Cert.Attn.Head

/-- A load of head `hn`'s slice of a query block is that head's piece. -/
theorem ld_headQ (x0 : Vec Ideal S1x12x256x64 .bf16) (hn : ℕ) (hlt : hn < 12)
    {inb : ∀ a, (![0, hn, 0, 0] : Fin 4 → ℕ) a + (![1, 1, 256, 64] : Fin 4 → ℕ) a ≤ S1x12x256x64.size a} :
    View.ld x0 (Rect.unit (s := S1x12x256x64) ![0, hn, 0, 0] ![1, 1, 256, 64] inb) = headQ x0 ⟨hn, hlt⟩ := by
  funext y
  show x0 _ = x0 _
  refine congrArg x0 (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show hn + 1 * (y 1).val = hn; omega
  | ⟨2, _⟩ => show 0 + 1 * (y 2).val = (y 2).val; omega
  | ⟨3, _⟩ => show 0 + 1 * (y 3).val = (y 3).val; omega

/-- A load of head `hn`'s slice of a key or value block is that head's piece. -/
theorem ld_headK (x1 : Vec Ideal S1x12x2048x64 .bf16) (hn : ℕ) (hlt : hn < 12)
    {inb : ∀ a, (![0, hn, 0, 0] : Fin 4 → ℕ) a + (![1, 1, 2048, 64] : Fin 4 → ℕ) a ≤ S1x12x2048x64.size a} :
    View.ld x1 (Rect.unit (s := S1x12x2048x64) ![0, hn, 0, 0] ![1, 1, 2048, 64] inb) = headK x1 ⟨hn, hlt⟩ := by
  funext y
  show x1 _ = x1 _
  refine congrArg x1 (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show hn + 1 * (y 1).val = hn; omega
  | ⟨2, _⟩ => show 0 + 1 * (y 2).val = (y 2).val; omega
  | ⟨3, _⟩ => show 0 + 1 * (y 3).val = (y 3).val; omega

/-- Head `hn`'s slice of the context block, entry by entry. -/
theorem emb_head (hn : ℕ) (hlt : hn < 12)
    {inb : ∀ a, (![0, hn, 0, 0] : Fin 4 → ℕ) a + (![1, 1, 256, 64] : Fin 4 → ℕ) a ≤ S1x12x256x64.size a}
    (z w : Fin 1) (r : Fin 256) (d : Fin 64) :
    (Rect.unit (s := S1x12x256x64) ![0, hn, 0, 0] ![1, 1, 256, 64] inb).emb (ix4 z w r d)
      = ix4 (0 : Fin 1) (⟨hn, hlt⟩ : Fin 12) r d := by
  funext a
  apply Fin.ext
  have hz : z.val = 0 := by omega
  have hw : w.val = 0 := by omega
  match a with
  | ⟨0, _⟩ => show 0 + 1 * z.val = 0; omega
  | ⟨1, _⟩ => show hn + 1 * w.val = hn; omega
  | ⟨2, _⟩ => show 0 + 1 * r.val = r.val; omega
  | ⟨3, _⟩ => show 0 + 1 * d.val = d.val; omega

theorem blockCtx_apply (x0 : QBlock) (x1 x2 : KBlock) (h : Fin 12) (r : Fin 256) (d : Fin 64) :
    blockCtx x0 x1 x2 (ix4 (0 : Fin 1) h r d) = ∑ j : Fin 2048, pProb (headQ x0 h) (headK x1 h) r j * x2 (ix4 (0 : Fin 1) h j d) := rfl

/-- One head's store into the context block is `blockCtx` on that head's slice. -/
theorem ctx_piece (x0 : Vec Ideal S1x12x256x64 .bf16) (x1 x2 : Vec Ideal S1x12x2048x64 .bf16) (hn : ℕ) (hlt : hn < 12)
    {inbq : ∀ a, (![0, hn, 0, 0] : Fin 4 → ℕ) a + (![1, 1, 256, 64] : Fin 4 → ℕ) a ≤ S1x12x256x64.size a}
    {inbk inbv : ∀ a, (![0, hn, 0, 0] : Fin 4 → ℕ) a + (![1, 1, 2048, 64] : Fin 4 → ℕ) a ≤ S1x12x2048x64.size a}
    (inbo : ∀ a, (![0, hn, 0, 0] : Fin 4 → ℕ) a + (![1, 1, 256, 64] : Fin 4 → ℕ) a ≤ S1x12x256x64.size a)
    (x : (Rect.unit (s := S1x12x256x64) ![0, hn, 0, 0] ![1, 1, 256, 64] inbo).shape.Idx) :
    k1_pay8 (F := Ideal) (k1_pay4 (F := Ideal) (View.ld x2 (Rect.unit (s := S1x12x2048x64) ![0, hn, 0, 0] ![1, 1, 2048, 64] inbv)))
        (k1_pay7 (F := Ideal) (View.ld x0 (Rect.unit (s := S1x12x256x64) ![0, hn, 0, 0] ![1, 1, 256, 64] inbq))
          (View.ld x1 (Rect.unit (s := S1x12x2048x64) ![0, hn, 0, 0] ![1, 1, 2048, 64] inbk)))
        (constant S256x64 .f32 0x00000000#32) x
      = blockCtx x0 x1 x2 ((Rect.unit (s := S1x12x256x64) ![0, hn, 0, 0] ![1, 1, 256, 64] inbo).emb x) := by
  obtain ⟨z, w, r, d, rfl⟩ : ∃ (z w : Fin 1) (r : Fin 256) (d : Fin 64), x = ix4 z w r d := ⟨x 0, x 1, x 2, x 3, eq_ix4 x⟩
  rw [emb_head hn hlt, blockCtx_apply, pay8_apply, ld_headQ x0 hn hlt, ld_headK x1 hn hlt, ld_headK x2 hn hlt]
  refine Finset.sum_congr rfl fun j _ => ?_
  rw [pay7_apply, pay4_apply]
  rfl

/-! Every head's accumulation step is the first head's, under another name. -/
theorem pay11_apply (v5 : Vec Ideal S1x1x256x64 .bf16) (v8 : Vec Ideal S1x1x2048x64 .bf16) (v25 : Vec Ideal S256x2048 .f32) (r : Fin 256) (j : Fin 2048) :
    k1_pay11 (F := Ideal) v5 v8 v25 (ix2 r j) = v25 (ix2 r j) + pProb v5 v8 r j * ((1 / 12 : ℝ) : EReal) := pay6_apply v5 v8 v25 r j
theorem pay16_apply (v5 : Vec Ideal S1x1x256x64 .bf16) (v8 : Vec Ideal S1x1x2048x64 .bf16) (v25 : Vec Ideal S256x2048 .f32) (r : Fin 256) (j : Fin 2048) :
    k1_pay16 (F := Ideal) v5 v8 v25 (ix2 r j) = v25 (ix2 r j) + pProb v5 v8 r j * ((1 / 12 : ℝ) : EReal) := pay6_apply v5 v8 v25 r j
theorem pay21_apply (v5 : Vec Ideal S1x1x256x64 .bf16) (v8 : Vec Ideal S1x1x2048x64 .bf16) (v25 : Vec Ideal S256x2048 .f32) (r : Fin 256) (j : Fin 2048) :
    k1_pay21 (F := Ideal) v5 v8 v25 (ix2 r j) = v25 (ix2 r j) + pProb v5 v8 r j * ((1 / 12 : ℝ) : EReal) := pay6_apply v5 v8 v25 r j
theorem pay26_apply (v5 : Vec Ideal S1x1x256x64 .bf16) (v8 : Vec Ideal S1x1x2048x64 .bf16) (v25 : Vec Ideal S256x2048 .f32) (r : Fin 256) (j : Fin 2048) :
    k1_pay26 (F := Ideal) v5 v8 v25 (ix2 r j) = v25 (ix2 r j) + pProb v5 v8 r j * ((1 / 12 : ℝ) : EReal) := pay6_apply v5 v8 v25 r j
theorem pay31_apply (v5 : Vec Ideal S1x1x256x64 .bf16) (v8 : Vec Ideal S1x1x2048x64 .bf16) (v25 : Vec Ideal S256x2048 .f32) (r : Fin 256) (j : Fin 2048) :
    k1_pay31 (F := Ideal) v5 v8 v25 (ix2 r j) = v25 (ix2 r j) + pProb v5 v8 r j * ((1 / 12 : ℝ) : EReal) := pay6_apply v5 v8 v25 r j
theorem pay36_apply (v5 : Vec Ideal S1x1x256x64 .bf16) (v8 : Vec Ideal S1x1x2048x64 .bf16) (v25 : Vec Ideal S256x2048 .f32) (r : Fin 256) (j : Fin 2048) :
    k1_pay36 (F := Ideal) v5 v8 v25 (ix2 r j) = v25 (ix2 r j) + pProb v5 v8 r j * ((1 / 12 : ℝ) : EReal) := pay6_apply v5 v8 v25 r j
theorem pay41_apply (v5 : Vec Ideal S1x1x256x64 .bf16) (v8 : Vec Ideal S1x1x2048x64 .bf16) (v25 : Vec Ideal S256x2048 .f32) (r : Fin 256) (j : Fin 2048) :
    k1_pay41 (F := Ideal) v5 v8 v25 (ix2 r j) = v25 (ix2 r j) + pProb v5 v8 r j * ((1 / 12 : ℝ) : EReal) := pay6_apply v5 v8 v25 r j
theorem pay46_apply (v5 : Vec Ideal S1x1x256x64 .bf16) (v8 : Vec Ideal S1x1x2048x64 .bf16) (v25 : Vec Ideal S256x2048 .f32) (r : Fin 256) (j : Fin 2048) :
    k1_pay46 (F := Ideal) v5 v8 v25 (ix2 r j) = v25 (ix2 r j) + pProb v5 v8 r j * ((1 / 12 : ℝ) : EReal) := pay6_apply v5 v8 v25 r j
theorem pay51_apply (v5 : Vec Ideal S1x1x256x64 .bf16) (v8 : Vec Ideal S1x1x2048x64 .bf16) (v25 : Vec Ideal S256x2048 .f32) (r : Fin 256) (j : Fin 2048) :
    k1_pay51 (F := Ideal) v5 v8 v25 (ix2 r j) = v25 (ix2 r j) + pProb v5 v8 r j * ((1 / 12 : ℝ) : EReal) := pay6_apply v5 v8 v25 r j
theorem pay56_apply (v5 : Vec Ideal S1x1x256x64 .bf16) (v8 : Vec Ideal S1x1x2048x64 .bf16) (v25 : Vec Ideal S256x2048 .f32) (r : Fin 256) (j : Fin 2048) :
    k1_pay56 (F := Ideal) v5 v8 v25 (ix2 r j) = v25 (ix2 r j) + pProb v5 v8 r j * ((1 / 12 : ℝ) : EReal) := pay6_apply v5 v8 v25 r j
theorem pay61_apply (v5 : Vec Ideal S1x1x256x64 .bf16) (v8 : Vec Ideal S1x1x2048x64 .bf16) (v25 : Vec Ideal S256x2048 .f32) (r : Fin 256) (j : Fin 2048) :
    k1_pay61 (F := Ideal) v5 v8 v25 (ix2 r j) = v25 (ix2 r j) + pProb v5 v8 r j * ((1 / 12 : ℝ) : EReal) := pay6_apply v5 v8 v25 r j

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

set_option maxHeartbeats 2000000 in
/-- The mean block after the body. -/
theorem out4_eq (c : Dev nD) (i : grid1.Coords) (arg2 : Memref sig .tc .vmem S1x12x256x64 .bf16) (harg2 : arg2.IsWhole) (arg3 : Memref sig .tc .vmem S1x12x2048x64 .bf16) (harg3 : arg3.IsWhole) (arg4 : Memref sig .tc .vmem S1x12x2048x64 .bf16) (harg4 : arg4.IsWhole) (arg5 : Memref sig .tc .vmem S1x12x256x64 .bf16) (harg5 : arg5.IsWhole) (arg6 : Memref sig .tc .vmem S1x256x2048 .f32) (harg6 : arg6.IsWhole) (arg7 : Memref sig .tc .vmem S256x2048 .f32) (harg7 : arg7.IsWhole)
    (x0 : Vec Ideal S1x12x256x64 .bf16) (x1 : Vec Ideal S1x12x2048x64 .bf16) (x2 : Vec Ideal S1x12x2048x64 .bf16) :
    out1_A_4 (F := Ideal) c i arg2 harg2 arg3 harg3 arg4 harg4 arg5 harg5 arg6 harg6 arg7 harg7 x0 x1 x2 = blockMean x0 x1 := by
  unfold out1_A_4
  rw [View.read_writes_eq_canon _ _ _ (cover1_A_4 c i arg2 harg2 arg3 harg3 arg4 harg4 arg5 harg5 arg6 harg6 arg7 harg7 x0 x1 x2)]
  unfold kernelRun1_A
  dsimp only
  sl_unfold_words
  rw [View.canon_unit_zero hz3]
  simp only [View.readCov_cons_unit_zero (S := S256x2048) _ hz2, View.readCov_unit_zero (S := S256x2048) _ hz2,
    View.readAt_eq_ld, harg2.read_unread, harg3.read_unread]
  funext y
  obtain ⟨z, r, j, rfl⟩ : ∃ (z : Fin 1) (r : Fin 256) (j : Fin 2048), y = ix3 z r j := ⟨y 0, y 1, y 2, eq_ix3 y⟩
  rw [pay2_apply]
  simp only [pay6_apply, pay11_apply, pay16_apply, pay21_apply, pay26_apply, pay31_apply, pay36_apply, pay41_apply, pay46_apply, pay51_apply, pay56_apply, pay61_apply, pay3_apply, ld_headQ x0 0 (by norm_num), ld_headQ x0 1 (by norm_num), ld_headQ x0 2 (by norm_num), ld_headQ x0 3 (by norm_num), ld_headQ x0 4 (by norm_num), ld_headQ x0 5 (by norm_num), ld_headQ x0 6 (by norm_num), ld_headQ x0 7 (by norm_num), ld_headQ x0 8 (by norm_num), ld_headQ x0 9 (by norm_num), ld_headQ x0 10 (by norm_num), ld_headQ x0 11 (by norm_num), ld_headK x1 0 (by norm_num), ld_headK x1 1 (by norm_num), ld_headK x1 2 (by norm_num), ld_headK x1 3 (by norm_num), ld_headK x1 4 (by norm_num), ld_headK x1 5 (by norm_num), ld_headK x1 6 (by norm_num), ld_headK x1 7 (by norm_num), ld_headK x1 8 (by norm_num), ld_headK x1 9 (by norm_num), ld_headK x1 10 (by norm_num), ld_headK x1 11 (by norm_num)]
  exact accumulate_twelve (fun h => pProb (headQ x0 h) (headK x1 h) r j) (by norm_num)

set_option maxHeartbeats 2000000 in
/-- The context block after the body. -/
theorem out3_eq (c : Dev nD) (i : grid1.Coords) (arg2 : Memref sig .tc .vmem S1x12x256x64 .bf16) (harg2 : arg2.IsWhole) (arg3 : Memref sig .tc .vmem S1x12x2048x64 .bf16) (harg3 : arg3.IsWhole) (arg4 : Memref sig .tc .vmem S1x12x2048x64 .bf16) (harg4 : arg4.IsWhole) (arg5 : Memref sig .tc .vmem S1x12x256x64 .bf16) (harg5 : arg5.IsWhole) (arg6 : Memref sig .tc .vmem S1x256x2048 .f32) (harg6 : arg6.IsWhole) (arg7 : Memref sig .tc .vmem S256x2048 .f32) (harg7 : arg7.IsWhole)
    (x0 : Vec Ideal S1x12x256x64 .bf16) (x1 : Vec Ideal S1x12x2048x64 .bf16) (x2 : Vec Ideal S1x12x2048x64 .bf16) :
    out1_A_3 (F := Ideal) c i arg2 harg2 arg3 harg3 arg4 harg4 arg5 harg5 arg6 harg6 arg7 harg7 x0 x1 x2 = blockCtx x0 x1 x2 := by
  unfold out1_A_3
  rw [View.read_writes_eq_canon _ _ _ (cover1_A_3 c i arg2 harg2 arg3 harg3 arg4 harg4 arg5 harg5 arg6 harg6 arg7 harg7 x0 x1 x2)]
  funext y
  refine View.canon_apply_of_pieces (blockCtx x0 x1 x2) _ ?_ y (cover1_A_3 c i arg2 harg2 arg3 harg3 arg4 harg4 arg5 harg5 arg6 harg6 arg7 harg7 x0 x1 x2 y)
  unfold kernelRun1_A
  dsimp only
  sl_unfold_words
  simp only [View.readAt_eq_ld, harg2.read_unread, harg3.read_unread, harg4.read_unread]
  intro p hp
  simp only [List.mem_cons, List.not_mem_nil, or_false] at hp
  rcases hp with rfl | rfl | rfl | rfl | rfl | rfl | rfl | rfl | rfl | rfl | rfl | rfl
  · exact fun x => ctx_piece x0 x1 x2 11 (by norm_num) inb_S1x12x256x64_S1x1x256x64_0_11_0_0 x
  · exact fun x => ctx_piece x0 x1 x2 10 (by norm_num) inb_S1x12x256x64_S1x1x256x64_0_10_0_0 x
  · exact fun x => ctx_piece x0 x1 x2 9 (by norm_num) inb_S1x12x256x64_S1x1x256x64_0_9_0_0 x
  · exact fun x => ctx_piece x0 x1 x2 8 (by norm_num) inb_S1x12x256x64_S1x1x256x64_0_8_0_0 x
  · exact fun x => ctx_piece x0 x1 x2 7 (by norm_num) inb_S1x12x256x64_S1x1x256x64_0_7_0_0 x
  · exact fun x => ctx_piece x0 x1 x2 6 (by norm_num) inb_S1x12x256x64_S1x1x256x64_0_6_0_0 x
  · exact fun x => ctx_piece x0 x1 x2 5 (by norm_num) inb_S1x12x256x64_S1x1x256x64_0_5_0_0 x
  · exact fun x => ctx_piece x0 x1 x2 4 (by norm_num) inb_S1x12x256x64_S1x1x256x64_0_4_0_0 x
  · exact fun x => ctx_piece x0 x1 x2 3 (by norm_num) inb_S1x12x256x64_S1x1x256x64_0_3_0_0 x
  · exact fun x => ctx_piece x0 x1 x2 2 (by norm_num) inb_S1x12x256x64_S1x1x256x64_0_2_0_0 x
  · exact fun x => ctx_piece x0 x1 x2 1 (by norm_num) inb_S1x12x256x64_S1x1x256x64_0_1_0_0 x
  · exact fun x => ctx_piece x0 x1 x2 0 (by norm_num) inb_S1x12x256x64_S1x1x256x64_0_0_0_0 x

end Cert.Attn.Body

end
-- ==== Proof.Region1Array.lean ====
/-
  The attention region of the idealized kernel, from its blocks to its two result arrays.

  The 16 grid points are the pairs (b, qi) of a sequence and a block of 256 query rows, point b·8 + qi. Point (b, qi)
  reads rows qi·256 … of the queries of sequence b and all of that sequence's keys and values, and writes rows
  qi·256 … of sequence b of the context array and of the mean-weight array. Since a point's blocks are those rows
  of the whole arrays, what it writes is those rows of the whole context and mean-weight arrays; the 16 blocks
  tile each array, so after all points the arrays are the whole context and the whole mean weights.
-/
import proofs.«177644_j16097537425671_2_alg».proof.Proof.Gen.KernelIdeal.Frame
import proofs.«177644_j16097537425671_2_alg».proof.Proof.AttnBlockArray
import proofs.«177644_j16097537425671_2_alg».proof.Proof.Region1Body
import Idealize.ShloMosaic.Lib.Pipeline.Value
import Idealize.ShloMosaic.Lib.ValueIdx

noncomputable section

namespace Cert.Attn.Tiled

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The index maps -/

/-- The index maps over the 16 grid points: point t is (t / 8, t % 8); the query block and the context block sit at
    (t / 8, 0, t % 8, 0), the key and value blocks at (t / 8, 0, 0, 0), the mean-weight block at (t / 8, t % 8, 0). -/
theorem blockIndex1 : ∀ t : Fin cfg1.N,
    (win1_0.index t (0 : Fin 4) = t.val / 8 ∧ win1_0.index t (1 : Fin 4) = 0 ∧ win1_0.index t (2 : Fin 4) = t.val % 8 ∧ win1_0.index t (3 : Fin 4) = 0)
    ∧ (win1_1.index t (0 : Fin 4) = t.val / 8 ∧ win1_1.index t (1 : Fin 4) = 0 ∧ win1_1.index t (2 : Fin 4) = 0 ∧ win1_1.index t (3 : Fin 4) = 0)
    ∧ (win1_2.index t (0 : Fin 4) = t.val / 8 ∧ win1_2.index t (1 : Fin 4) = 0 ∧ win1_2.index t (2 : Fin 4) = 0 ∧ win1_2.index t (3 : Fin 4) = 0)
    ∧ (win1_3.index t (0 : Fin 4) = t.val / 8 ∧ win1_3.index t (1 : Fin 4) = 0 ∧ win1_3.index t (2 : Fin 4) = t.val % 8 ∧ win1_3.index t (3 : Fin 4) = 0)
    ∧ (win1_4.index t (0 : Fin 3) = t.val / 8 ∧ win1_4.index t (1 : Fin 3) = t.val % 8 ∧ win1_4.index t (2 : Fin 3) = 0) :=
  (by decide +kernel : ∀ t : Fin grid1.N, _)

section
variable (V : (c : Dev nD) → (b : Ref sig .tc) → Buf (Elt Ideal) ((c : Thread nD τ).loc b))

/-- What grid point t writes back to the context array is its block of the whole context. -/
theorem writtenCtx_eq (c : Dev nD) (t : Fin cfg1.N) :
    (dat1 (F := Ideal) V c).flushed 3 t = ((cfg1.win 3).blk t).view.read (Elt Ideal) (arrCtx (V c main_v7) (V c main_v8) (V c main_v9)) := by
  show (cfg1.win 3).cut (grid1.coords t) ((dat1 V c).after 3 t) = _
  rw [after1_3]
  unfold outsAt1
  dsimp only
  rw [Cert.Attn.Body.out3_eq c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t)]
  obtain ⟨⟨a0, a1, a2, a3⟩, ⟨b0, b1, b2, b3⟩, ⟨c0, c1, c2, c3⟩, ⟨d0, d1, d2, d3⟩, -⟩ := blockIndex1 t
  have ht : t.val < 16 := t.isLt
  funext j
  show blockCtx (iblk1 V c 0 t) (iblk1 V c 1 t) (iblk1 V c 2 t) j = arrCtx (V c main_v7) (V c main_v8) (V c main_v9) (((cfg1.win 3).blk t).view.emb j)
  refine blockCtx_eq (iblk1 V c 0 t) (iblk1 V c 1 t) (iblk1 V c 2 t) (V c main_v7) (V c main_v8) (V c main_v9)
    (⟨t.val / 8, by omega⟩ : Fin 2) (⟨t.val % 8, by omega⟩ : Fin 8) ?_ ?_ ?_ j (((cfg1.win 3).blk t).view.emb j) ?_ ?_ ?_ ?_
  · intro h r d
    show V c main_v7 (((cfg1.win 0).blk t).view.emb (ix4 (0 : Fin 1) h r d)) = V c main_v7 (ix4 (⟨t.val / 8, by omega⟩ : Fin 2) h (qRow ⟨t.val % 8, by omega⟩ r) d)
    refine congrArg (V c main_v7) (funext fun a => Fin.ext ?_)
    match a with
    | ⟨0, _⟩ => show win1_0.index t (0 : Fin 4) * 1 + 1 * 0 = t.val / 8; omega
    | ⟨1, _⟩ => show win1_0.index t (1 : Fin 4) * 12 + 1 * h.val = h.val; omega
    | ⟨2, _⟩ => show win1_0.index t (2 : Fin 4) * 256 + 1 * r.val = t.val % 8 * 256 + r.val; omega
    | ⟨3, _⟩ => show win1_0.index t (3 : Fin 4) * 64 + 1 * d.val = d.val; omega
  · intro h k d
    show V c main_v8 (((cfg1.win 1).blk t).view.emb (ix4 (0 : Fin 1) h k d)) = V c main_v8 (ix4 (⟨t.val / 8, by omega⟩ : Fin 2) h k d)
    refine congrArg (V c main_v8) (funext fun a => Fin.ext ?_)
    match a with
    | ⟨0, _⟩ => show win1_1.index t (0 : Fin 4) * 1 + 1 * 0 = t.val / 8; omega
    | ⟨1, _⟩ => show win1_1.index t (1 : Fin 4) * 12 + 1 * h.val = h.val; omega
    | ⟨2, _⟩ => show win1_1.index t (2 : Fin 4) * 2048 + 1 * k.val = k.val; omega
    | ⟨3, _⟩ => show win1_1.index t (3 : Fin 4) * 64 + 1 * d.val = d.val; omega
  · intro h k d
    show V c main_v9 (((cfg1.win 2).blk t).view.emb (ix4 (0 : Fin 1) h k d)) = V c main_v9 (ix4 (⟨t.val / 8, by omega⟩ : Fin 2) h k d)
    refine congrArg (V c main_v9) (funext fun a => Fin.ext ?_)
    match a with
    | ⟨0, _⟩ => show win1_2.index t (0 : Fin 4) * 1 + 1 * 0 = t.val / 8; omega
    | ⟨1, _⟩ => show win1_2.index t (1 : Fin 4) * 12 + 1 * h.val = h.val; omega
    | ⟨2, _⟩ => show win1_2.index t (2 : Fin 4) * 2048 + 1 * k.val = k.val; omega
    | ⟨3, _⟩ => show win1_2.index t (3 : Fin 4) * 64 + 1 * d.val = d.val; omega
  · show win1_3.index t (0 : Fin 4) * 1 + 1 * (j 0).val = t.val / 8
    have hj : (j 0).val < 1 := (j 0).isLt
    omega
  · show win1_3.index t (1 : Fin 4) * 12 + 1 * (j 1).val = (j 1).val; omega
  · show win1_3.index t (2 : Fin 4) * 256 + 1 * (j 2).val = t.val % 8 * 256 + (j 2).val; omega
  · show win1_3.index t (3 : Fin 4) * 64 + 1 * (j 3).val = (j 3).val; omega

/-- What grid point t writes back to the mean-weight array is its block of the whole mean weights. -/
theorem writtenMean_eq (c : Dev nD) (t : Fin cfg1.N) :
    (dat1 (F := Ideal) V c).flushed 4 t = ((cfg1.win 4).blk t).view.read (Elt Ideal) (arrMean (V c main_v7) (V c main_v8)) := by
  show (cfg1.win 4).cut (grid1.coords t) ((dat1 V c).after 4 t) = _
  rw [after1_4]
  unfold outsAt1
  dsimp only
  rw [Cert.Attn.Body.out4_eq c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t)]
  obtain ⟨⟨a0, a1, a2, a3⟩, ⟨b0, b1, b2, b3⟩, -, -, ⟨e0, e1, e2⟩⟩ := blockIndex1 t
  have ht : t.val < 16 := t.isLt
  funext j
  show blockMean (iblk1 V c 0 t) (iblk1 V c 1 t) j = arrMean (V c main_v7) (V c main_v8) (((cfg1.win 4).blk t).view.emb j)
  refine blockMean_eq (iblk1 V c 0 t) (iblk1 V c 1 t) (V c main_v7) (V c main_v8)
    (⟨t.val / 8, by omega⟩ : Fin 2) (⟨t.val % 8, by omega⟩ : Fin 8) ?_ ?_ j (((cfg1.win 4).blk t).view.emb j) ?_ ?_ ?_
  · intro h r d
    show V c main_v7 (((cfg1.win 0).blk t).view.emb (ix4 (0 : Fin 1) h r d)) = V c main_v7 (ix4 (⟨t.val / 8, by omega⟩ : Fin 2) h (qRow ⟨t.val % 8, by omega⟩ r) d)
    refine congrArg (V c main_v7) (funext fun a => Fin.ext ?_)
    match a with
    | ⟨0, _⟩ => show win1_0.index t (0 : Fin 4) * 1 + 1 * 0 = t.val / 8; omega
    | ⟨1, _⟩ => show win1_0.index t (1 : Fin 4) * 12 + 1 * h.val = h.val; omega
    | ⟨2, _⟩ => show win1_0.index t (2 : Fin 4) * 256 + 1 * r.val = t.val % 8 * 256 + r.val; omega
    | ⟨3, _⟩ => show win1_0.index t (3 : Fin 4) * 64 + 1 * d.val = d.val; omega
  · intro h k d
    show V c main_v8 (((cfg1.win 1).blk t).view.emb (ix4 (0 : Fin 1) h k d)) = V c main_v8 (ix4 (⟨t.val / 8, by omega⟩ : Fin 2) h k d)
    refine congrArg (V c main_v8) (funext fun a => Fin.ext ?_)
    match a with
    | ⟨0, _⟩ => show win1_1.index t (0 : Fin 4) * 1 + 1 * 0 = t.val / 8; omega
    | ⟨1, _⟩ => show win1_1.index t (1 : Fin 4) * 12 + 1 * h.val = h.val; omega
    | ⟨2, _⟩ => show win1_1.index t (2 : Fin 4) * 2048 + 1 * k.val = k.val; omega
    | ⟨3, _⟩ => show win1_1.index t (3 : Fin 4) * 64 + 1 * d.val = d.val; omega
  · show win1_4.index t (0 : Fin 3) * 1 + 1 * (j 0).val = t.val / 8
    have hj : (j 0).val < 1 := (j 0).isLt
    omega
  · show win1_4.index t (1 : Fin 3) * 256 + 1 * (j 1).val = t.val % 8 * 256 + (j 1).val; omega
  · show win1_4.index t (2 : Fin 3) * 2048 + 1 * (j 2).val = (j 2).val; omega

/-! ## The blocks tile the arrays -/

/-- An index of the context array is in point t's block iff each coordinate is in the block's range on its axis. -/
theorem mem_blockCtx (t : Fin cfg1.N) (i : S2x12x2048x64.Idx) :
    i ∈ ((cfg1.win 3).blk t).view.set ↔ ∀ a : Fin 4, win1_3.index t a * S1x12x256x64.size a ≤ (i a).val ∧ (i a).val < win1_3.index t a * S1x12x256x64.size a + S1x12x256x64.size a := by
  show i ∈ ((View.whole main_v10_0).slice (win1_3.rect t)).set ↔ _
  rw [View.set_slice_whole, Rect.mem_set_unit]
  exact Iff.rfl

/-- An index of the mean-weight array is in point t's block iff each coordinate is in the block's range on its axis. -/
theorem mem_blockMean (t : Fin cfg1.N) (i : S2x2048x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v10_1).slice (win1_4.rect t)).set ↔ _
  rw [View.set_slice_whole, Rect.mem_set_unit]
  exact Iff.rfl

/-- Row s of sequence b of the context array is in the block of point b · 8 + s / 256. -/
theorem coveredCtx (i : S2x12x2048x64.Idx) : ∃ t : Fin cfg1.N, (cfg1.win 3).flush t = true ∧ i ∈ ((cfg1.win 3).blk t).view.set := by
  have hi0 : (i 0).val < 2 := (i 0).isLt
  have hi1 : (i 1).val < 12 := (i 1).isLt
  have hi2 : (i 2).val < 2048 := (i 2).isLt
  have hi3 : (i 3).val < 64 := (i 3).isLt
  have hN : (i 0).val * 8 + (i 2).val / 256 < cfg1.N := by show (i 0).val * 8 + (i 2).val / 256 < 16; omega
  refine ⟨⟨(i 0).val * 8 + (i 2).val / 256, hN⟩, flush1_3 _, ?_⟩
  obtain ⟨-, -, -, ⟨d0, d1, d2, d3⟩, -⟩ := blockIndex1 ⟨(i 0).val * 8 + (i 2).val / 256, hN⟩
  have d0' : win1_3.index ⟨(i 0).val * 8 + (i 2).val / 256, hN⟩ (0 : Fin 4) = ((i 0).val * 8 + (i 2).val / 256) / 8 := d0
  have d2' : win1_3.index ⟨(i 0).val * 8 + (i 2).val / 256, hN⟩ (2 : Fin 4) = ((i 0).val * 8 + (i 2).val / 256) % 8 := d2
  rw [mem_blockCtx]
  intro a
  match a with
  | ⟨0, _⟩ => show win1_3.index ⟨(i 0).val * 8 + (i 2).val / 256, hN⟩ (0 : Fin 4) * 1 ≤ (i 0).val ∧ (i 0).val < win1_3.index ⟨(i 0).val * 8 + (i 2).val / 256, hN⟩ (0 : Fin 4) * 1 + 1; omega
  | ⟨1, _⟩ => show win1_3.index ⟨(i 0).val * 8 + (i 2).val / 256, hN⟩ (1 : Fin 4) * 12 ≤ (i 1).val ∧ (i 1).val < win1_3.index ⟨(i 0).val * 8 + (i 2).val / 256, hN⟩ (1 : Fin 4) * 12 + 12; omega
  | ⟨2, _⟩ => show win1_3.index ⟨(i 0).val * 8 + (i 2).val / 256, hN⟩ (2 : Fin 4) * 256 ≤ (i 2).val ∧ (i 2).val < win1_3.index ⟨(i 0).val * 8 + (i 2).val / 256, hN⟩ (2 : Fin 4) * 256 + 256; omega
  | ⟨3, _⟩ => show win1_3.index ⟨(i 0).val * 8 + (i 2).val / 256, hN⟩ (3 : Fin 4) * 64 ≤ (i 3).val ∧ (i 3).val < win1_3.index ⟨(i 0).val * 8 + (i 2).val / 256, hN⟩ (3 : Fin 4) * 64 + 64; omega

/-- Row s of sequence b of the mean-weight array is in the block of point b · 8 + s / 256. -/
theorem coveredMean (i : S2x2048x2048.Idx) : ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 2048 := (i 2).isLt
  have hN : (i 0).val * 8 + (i 1).val / 256 < cfg1.N := by show (i 0).val * 8 + (i 1).val / 256 < 16; omega
  refine ⟨⟨(i 0).val * 8 + (i 1).val / 256, hN⟩, flush1_4 _, ?_⟩
  obtain ⟨-, -, -, -, ⟨e0, e1, e2⟩⟩ := blockIndex1 ⟨(i 0).val * 8 + (i 1).val / 256, hN⟩
  have e0' : win1_4.index ⟨(i 0).val * 8 + (i 1).val / 256, hN⟩ (0 : Fin 3) = ((i 0).val * 8 + (i 1).val / 256) / 8 := e0
  have e1' : win1_4.index ⟨(i 0).val * 8 + (i 1).val / 256, hN⟩ (1 : Fin 3) = ((i 0).val * 8 + (i 1).val / 256) % 8 := e1
  rw [mem_blockMean]
  intro a
  match a with
  | ⟨0, _⟩ => show win1_4.index ⟨(i 0).val * 8 + (i 1).val / 256, hN⟩ (0 : Fin 3) * 1 ≤ (i 0).val ∧ (i 0).val < win1_4.index ⟨(i 0).val * 8 + (i 1).val / 256, hN⟩ (0 : Fin 3) * 1 + 1; omega
  | ⟨1, _⟩ => show win1_4.index ⟨(i 0).val * 8 + (i 1).val / 256, hN⟩ (1 : Fin 3) * 256 ≤ (i 1).val ∧ (i 1).val < win1_4.index ⟨(i 0).val * 8 + (i 1).val / 256, hN⟩ (1 : Fin 3) * 256 + 256; omega
  | ⟨2, _⟩ => show win1_4.index ⟨(i 0).val * 8 + (i 1).val / 256, hN⟩ (2 : Fin 3) * 2048 ≤ (i 2).val ∧ (i 2).val < win1_4.index ⟨(i 0).val * 8 + (i 1).val / 256, hN⟩ (2 : Fin 3) * 2048 + 2048; omega

/-! ## The two result arrays -/

/-- After the 16 grid points the context array is the whole context of the arrays as the region finds them. -/
theorem region1_ctx (c : Dev nD) :
    (dat1 (F := Ideal) V c).arrAt 3 cfg1.N = arrCtx (V c main_v7) (V c main_v8) (V c main_v9) :=
  (dat1 (F := Ideal) V c).arrAt_eq_of_cover 3 (arrCtx (V c main_v7) (V c main_v8) (V c main_v9)) (fun t _ => writtenCtx_eq V c t) coveredCtx

/-- After the 16 grid points the mean-weight array is the whole mean weights of the arrays as the region finds them. -/
theorem region1_mean (c : Dev nD) :
    (dat1 (F := Ideal) V c).arrAt 4 cfg1.N = arrMean (V c main_v7) (V c main_v8) :=
  (dat1 (F := Ideal) V c).arrAt_eq_of_cover 4 (arrMean (V c main_v7) (V c main_v8)) (fun t _ => writtenMean_eq V c t) coveredMean

end

end Cert.Attn.Tiled

end
-- ==== Proof.KernelStages.lean ====
/-
  The contents at the kernel program's segment boundaries, stage by stage.

  Each region's result array is the whole-array function its grid points write block by block; each host stretch
  re-lays the arrays. Composed: the fused projection, its three head-major slices, and the last product of the
  re-laid contexts with the narrowed output weight, each as a term of the previous boundary's contents.
-/
import proofs.«177644_j16097537425671_2_alg».proof.Proof.Gen.KernelIdeal.Frame
import proofs.«177644_j16097537425671_2_alg».proof.Proof.HostGlue
import proofs.«177644_j16097537425671_2_alg».proof.Proof.TiledProduct0
import proofs.«177644_j16097537425671_2_alg».proof.Proof.TiledProduct2
import proofs.«177644_j16097537425671_2_alg».proof.Proof.Region1Array

set_option maxRecDepth 16384

noncomputable section

namespace Cert.Attn.Stage

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- After the first region its result array is the product of the stacked rows with the narrowed fused weight. -/
theorem W2_v4 (c : Dev nD) : W2 (F := Ideal) m ρ c (Proc.devRef .tc main_v4)
    = Cert.Attn.Tiled.product0
        (shapeCast S4096x768 (truncf (F := Ideal) .bf16 (m ((c.tc : Thread nD τ).loc main_arg0)) bitsLt_bf16_f32 : FVec Ideal S2x2048x768 .bf16) shapeCasts_S2x2048x768_S4096x768)
        (truncf (F := Ideal) .bf16 (m ((c.tc : Thread nD τ).loc main_arg1)) bitsLt_bf16_f32 : FVec Ideal S2304x768 .bf16) := by
  have e3 : V1 (F := Ideal) m ρ c main_v3 = _ := Cert.Attn.Glue.W1_v3 m ρ c
  have e1 : V1 (F := Ideal) m ρ c main_v1 = _ := Cert.Attn.Glue.W1_v1 m ρ c
  refine ((W2_arr m ρ c 2).trans (Cert.Attn.Tiled.region0_array (V1 m ρ) c)).trans ?_
  rw [e3, e1]

/-- After the attention region its first result array is the heads' contexts of the three head-major slices. -/
theorem W4_v10_0 (c : Dev nD) : W4 (F := Ideal) m ρ c (Proc.devRef .tc main_v10_0)
    = Cert.Attn.arrCtx
      (extractStridedSlice S2x12x2048x64 ![0, 0, 0, 0] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_0)
      (extractStridedSlice S2x12x2048x64 ![0, 0, 0, 64] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_64)
      (extractStridedSlice S2x12x2048x64 ![0, 0, 0, 128] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_128) := by
  have e7 : V3 (F := Ideal) m ρ c main_v7 = _ := Cert.Attn.Glue.W3_v7 m ρ c
  have e8 : V3 (F := Ideal) m ρ c main_v8 = _ := Cert.Attn.Glue.W3_v8 m ρ c
  have e9 : V3 (F := Ideal) m ρ c main_v9 = _ := Cert.Attn.Glue.W3_v9 m ρ c
  refine ((W4_arr m ρ c 3).trans (Cert.Attn.Tiled.region1_ctx (V3 m ρ) c)).trans ?_
  rw [e7, e8, e9]

/-- … and its second result array the mean weights of the query and key slices. -/
theorem W4_v10_1 (c : Dev nD) : W4 (F := Ideal) m ρ c (Proc.devRef .tc main_v10_1)
    = Cert.Attn.arrMean
      (extractStridedSlice S2x12x2048x64 ![0, 0, 0, 0] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_0)
      (extractStridedSlice S2x12x2048x64 ![0, 0, 0, 64] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_64) := by
  have e7 : V3 (F := Ideal) m ρ c main_v7 = _ := Cert.Attn.Glue.W3_v7 m ρ c
  have e8 : V3 (F := Ideal) m ρ c main_v8 = _ := Cert.Attn.Glue.W3_v8 m ρ c
  refine ((W4_arr m ρ c 4).trans (Cert.Attn.Tiled.region1_mean (V3 m ρ) c)).trans ?_
  rw [e7, e8]

/-- After the last region its result array is the product of the re-laid contexts with the narrowed output weight. -/
theorem W6_v13 (c : Dev nD) : W6 (F := Ideal) m ρ c (Proc.devRef .tc main_v13)
    = Cert.Attn.Tiled.product2
        (shapeCast S4096x768 (transpose S2x2048x12x64 [0, 2, 1, 3] (W4 (F := Ideal) m ρ c (Proc.devRef .tc main_v10_0))
          transposes_S2x12x2048x64_S2x2048x12x64_0_2_1_3) shapeCasts_S2x2048x12x64_S4096x768)
        (truncf (F := Ideal) .bf16 (m ((c.tc : Thread nD τ).loc main_arg2)) bitsLt_bf16_f32 : FVec Ideal S768x768 .bf16) := by
  have e12 : V5 (F := Ideal) m ρ c main_v12 = _ := Cert.Attn.Glue.W5_v12 m ρ c
  have e2 : V5 (F := Ideal) m ρ c main_v2 = _ := (Cert.Attn.Glue.W5_v2 m ρ c).trans (Cert.Attn.Glue.W1_v2 m ρ c)
  refine ((W6_arr m ρ c 2).trans (Cert.Attn.Tiled.region2_array (V5 m ρ) c)).trans ?_
  rw [e12, e2]

end Cert.Attn.Stage

end
-- ==== Proof.KernelLayouts.lean ====
/-
  The kernel program's layout operations between its three regions, read at an index given by coordinates.

  • Stacking: the two sequences' rows laid one after the other, row b·2048 + s of the 4096-row matrix being row s of
    sequence b (narrowing is the identity on exact values).
  • Heads: a row's 2304 features cut into 12 heads of 192 (feature h·192 + e is coordinate e of head h), the head
    axis moved in front of the row axis, and a 64-wide slice taken at offset 0, 64 or 128: the head's query, key
    or value coordinates.
  • Heads side by side: the head axis moved back behind the row axis and the 12 × 64 coordinates flattened, feature
    c of a row being coordinate c % 64 of head c / 64.
  • Unstacking: the 4096 rows split back into the two sequences.
  Each shape fact is a hypothesis, so a lemma applies whichever proof of the fact a term carries.
-/
import proofs.«177644_j16097537425671_2_alg».proof.Proof.Spec
import proofs.«177644_j16097537425671_2_alg».proof.Proof.LibRelayout
import proofs.«177644_j16097537425671_2_alg».proof.KernelIdeal
import Idealize.ShloMosaic.Lib.Pipeline.Value

noncomputable section

namespace Cert.Attn.Lay

open Idealize.ShloMosaic Idealize.ShloMosaic.ValueIdx Cert.KernelIdeal

/-- Row b·2048 + s of the stacked, narrowed argument is row s of sequence b. -/
theorem stack_rows (A : (⟨S2x2048x768, .f32⟩ : BufTy).Contents (Elt Ideal))
    (hlt : FTy.bits .bf16 < FTy.bits .f32) (hc : S2x2048x768.ShapeCasts S4096x768)
    (b : Fin 2) (s : Fin 2048) (k : Fin 768) (r : Fin 4096) (hr : r.val = b.val * 2048 + s.val) :
    (shapeCast S4096x768 (truncf (F := Ideal) (s := S2x2048x768) (φ := .f32) .bf16 A hlt) hc (ix2 r k) : EReal)
      = A (ix3 b s k) :=
  Cert.LibRelayout.shapeCast_abc_nc_apply (truncf (F := Ideal) (s := S2x2048x768) (φ := .f32) .bf16 A hlt) hc b s k r hr

/-- The head's query coordinates: offset 0 of the head's 192 features. -/
theorem heads_query (P : S4096x2304.Idx → EReal) (hc : S4096x2304.ShapeCasts S2x2048x12x192)
    (ht : S2x2048x12x192.Transposes [0, 2, 1, 3] S2x12x2048x192)
    (hs : S2x12x2048x192.Slices ![0, 0, 0, 0] S2x12x2048x64)
    (b : Fin 2) (h : Fin 12) (s : Fin 2048) (d : Fin 64) :
    extractStridedSlice S2x12x2048x64 ![0, 0, 0, 0]
        (transpose S2x12x2048x192 [0, 2, 1, 3] (shapeCast S2x2048x12x192 P hc) ht) hs (ix4 b h s d)
      = P (ix2 (⟨b.val * 2048 + s.val, by omega⟩ : Fin 4096) (Cert.Attn.featQ h d)) := by
  have hb := b.isLt; have hh := h.isLt; have hs' := s.isLt; have hd := d.isLt
  refine (extractStridedSlice_apply ![0, 0, 0, 0] _ hs (ix4 b h s d)
    (ix4 b h s (⟨d.val, by omega⟩ : Fin 192)) (fun a => match a with
      | ⟨0, _⟩ => by show b.val = 0 + b.val; omega
      | ⟨1, _⟩ => by show h.val = 0 + h.val; omega
      | ⟨2, _⟩ => by show s.val = 0 + s.val; omega
      | ⟨3, _⟩ => by show d.val = 0 + d.val; omega)).trans ?_
  refine (transpose_apply [0, 2, 1, 3] _ ht (ix4 b h s (⟨d.val, by omega⟩ : Fin 192))
    (ix4 b s h (⟨d.val, by omega⟩ : Fin 192)) (fun a => match a with
      | ⟨0, _⟩ => rfl
      | ⟨1, _⟩ => rfl
      | ⟨2, _⟩ => rfl
      | ⟨3, _⟩ => rfl)).trans ?_
  exact shapeCast_apply P hc _ _ (by
    rw [Shape.rowMajor_val_two, Shape.rowMajor_val_four]
    show (b.val * 2048 + s.val) * 2304 + (h.val * 192 + d.val) = ((b.val * 2048 + s.val) * 12 + h.val) * 192 + d.val
    omega)

/-- The head's key coordinates: offset 64. -/
theorem heads_key (P : S4096x2304.Idx → EReal) (hc : S4096x2304.ShapeCasts S2x2048x12x192)
    (ht : S2x2048x12x192.Transposes [0, 2, 1, 3] S2x12x2048x192)
    (hs : S2x12x2048x192.Slices ![0, 0, 0, 64] S2x12x2048x64)
    (b : Fin 2) (h : Fin 12) (s : Fin 2048) (d : Fin 64) :
    extractStridedSlice S2x12x2048x64 ![0, 0, 0, 64]
        (transpose S2x12x2048x192 [0, 2, 1, 3] (shapeCast S2x2048x12x192 P hc) ht) hs (ix4 b h s d)
      = P (ix2 (⟨b.val * 2048 + s.val, by omega⟩ : Fin 4096) (Cert.Attn.featK h d)) := by
  have hb := b.isLt; have hh := h.isLt; have hs' := s.isLt; have hd := d.isLt
  refine (extractStridedSlice_apply ![0, 0, 0, 64] _ hs (ix4 b h s d)
    (ix4 b h s (⟨64 + d.val, by omega⟩ : Fin 192)) (fun a => match a with
      | ⟨0, _⟩ => by show b.val = 0 + b.val; omega
      | ⟨1, _⟩ => by show h.val = 0 + h.val; omega
      | ⟨2, _⟩ => by show s.val = 0 + s.val; omega
      | ⟨3, _⟩ => by show 64 + d.val = 64 + d.val; rfl)).trans ?_
  refine (transpose_apply [0, 2, 1, 3] _ ht (ix4 b h s (⟨64 + d.val, by omega⟩ : Fin 192))
    (ix4 b s h (⟨64 + d.val, by omega⟩ : Fin 192)) (fun a => match a with
      | ⟨0, _⟩ => rfl
      | ⟨1, _⟩ => rfl
      | ⟨2, _⟩ => rfl
      | ⟨3, _⟩ => rfl)).trans ?_
  exact shapeCast_apply P hc _ _ (by
    rw [Shape.rowMajor_val_two, Shape.rowMajor_val_four]
    show (b.val * 2048 + s.val) * 2304 + (h.val * 192 + 64 + d.val) = ((b.val * 2048 + s.val) * 12 + h.val) * 192 + (64 + d.val)
    omega)

/-- The head's value coordinates: offset 128. -/
theorem heads_value (P : S4096x2304.Idx → EReal) (hc : S4096x2304.ShapeCasts S2x2048x12x192)
    (ht : S2x2048x12x192.Transposes [0, 2, 1, 3] S2x12x2048x192)
    (hs : S2x12x2048x192.Slices ![0, 0, 0, 128] S2x12x2048x64)
    (b : Fin 2) (h : Fin 12) (s : Fin 2048) (d : Fin 64) :
    extractStridedSlice S2x12x2048x64 ![0, 0, 0, 128]
        (transpose S2x12x2048x192 [0, 2, 1, 3] (shapeCast S2x2048x12x192 P hc) ht) hs (ix4 b h s d)
      = P (ix2 (⟨b.val * 2048 + s.val, by omega⟩ : Fin 4096) (Cert.Attn.featV h d)) := by
  have hb := b.isLt; have hh := h.isLt; have hs' := s.isLt; have hd := d.isLt
  refine (extractStridedSlice_apply ![0, 0, 0, 128] _ hs (ix4 b h s d)
    (ix4 b h s (⟨128 + d.val, by omega⟩ : Fin 192)) (fun a => match a with
      | ⟨0, _⟩ => by show b.val = 0 + b.val; omega
      | ⟨1, _⟩ => by show h.val = 0 + h.val; omega
      | ⟨2, _⟩ => by show s.val = 0 + s.val; omega
      | ⟨3, _⟩ => by show 128 + d.val = 128 + d.val; rfl)).trans ?_
  refine (transpose_apply [0, 2, 1, 3] _ ht (ix4 b h s (⟨128 + d.val, by omega⟩ : Fin 192))
    (ix4 b s h (⟨128 + d.val, by omega⟩ : Fin 192)) (fun a => match a with
      | ⟨0, _⟩ => rfl
      | ⟨1, _⟩ => rfl
      | ⟨2, _⟩ => rfl
      | ⟨3, _⟩ => rfl)).trans ?_
  exact shapeCast_apply P hc _ _ (by
    rw [Shape.rowMajor_val_two, Shape.rowMajor_val_four]
    show (b.val * 2048 + s.val) * 2304 + (h.val * 192 + 128 + d.val) = ((b.val * 2048 + s.val) * 12 + h.val) * 192 + (128 + d.val)
    omega)

/-- Feature c of row b·2048 + s of the heads laid side by side is coordinate c % 64 of head c / 64. -/
theorem heads_flat (C : S2x12x2048x64.Idx → EReal) (ht : S2x12x2048x64.Transposes [0, 2, 1, 3] S2x2048x12x64)
    (hc : S2x2048x12x64.ShapeCasts S4096x768)
    (b : Fin 2) (s : Fin 2048) (c : Fin 768) (r : Fin 4096) (hr : r.val = b.val * 2048 + s.val) :
    shapeCast S4096x768 (transpose S2x2048x12x64 [0, 2, 1, 3] C ht) hc (ix2 r c)
      = C (ix4 b (⟨c.val / 64, by omega⟩ : Fin 12) s (⟨c.val % 64, by omega⟩ : Fin 64)) := by
  have hb := b.isLt; have hs' := s.isLt; have hcc := c.isLt
  refine (shapeCast_apply _ hc (ix2 r c)
    (ix4 b s (⟨c.val / 64, by omega⟩ : Fin 12) (⟨c.val % 64, by omega⟩ : Fin 64)) (by
      rw [Shape.rowMajor_val_four, Shape.rowMajor_val_two]
      show ((b.val * 2048 + s.val) * 12 + c.val / 64) * 64 + c.val % 64 = r.val * 768 + c.val
      omega)).trans ?_
  exact transpose_apply [0, 2, 1, 3] C ht _ _ (fun a => match a with
    | ⟨0, _⟩ => rfl
    | ⟨1, _⟩ => rfl
    | ⟨2, _⟩ => rfl
    | ⟨3, _⟩ => rfl)

/-- Row s of sequence b of the unstacked result is row b·2048 + s of the matrix. -/
theorem unstack_rows (O : S4096x768.Idx → EReal) (hc : S4096x768.ShapeCasts S2x2048x768)
    (b : Fin 2) (s : Fin 2048) (f : Fin 768) :
    shapeCast S2x2048x768 O hc (ix3 b s f) = O (ix2 (⟨b.val * 2048 + s.val, by omega⟩ : Fin 4096) f) :=
  Cert.LibRelayout.shapeCast_nc_abc_apply O hc b s f ⟨b.val * 2048 + s.val, by omega⟩ rfl

end Cert.Attn.Lay

end
-- ==== Proof.KernelJoinAttn.lean ====
/-
  Array-level attention over the queries, keys and values is the specification's attention, once the three arrays
  are the fused projection at the heads' query, key and value features.
-/
import proofs.«177644_j16097537425671_2_alg».proof.Proof.Spec
import proofs.«177644_j16097537425671_2_alg».proof.Proof.AttnBlocks

noncomputable section

open scoped BigOperators

namespace Cert.Attn.Lay

open Idealize.ShloMosaic Idealize.ShloMosaic.ValueIdx

variable (X : Cert.Attn.XIdx → EReal) (Wq : Cert.Attn.WqIdx → EReal)
variable (Q K V : Cert.Attn.HeadArr)

/-- The scores. -/
theorem aScore_eq
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d)) :
    Cert.Attn.aScore Q K = Cert.Attn.score X Wq := by
  funext b h q k
  unfold Cert.Attn.aScore Cert.Attn.score
  exact congrArg (· * Cert.Attn.scale) (Finset.sum_congr rfl fun d _ => by rw [hQ, hK])

/-- The rows' maxima. -/
theorem aMax_eq
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d)) :
    Cert.Attn.aMax Q K = Cert.Attn.rowMax X Wq := by
  funext b h q
  unfold Cert.Attn.aMax Cert.Attn.rowMax
  rw [aScore_eq X Wq Q K hQ hK]

/-- The exponentials. -/
theorem aExp_eq
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d)) :
    Cert.Attn.aExp Q K = Cert.Attn.expo X Wq := by
  funext b h q k
  unfold Cert.Attn.aExp Cert.Attn.expo
  rw [aScore_eq X Wq Q K hQ hK, aMax_eq X Wq Q K hQ hK]

/-- The rows' sums. -/
theorem aDen_eq
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d)) :
    Cert.Attn.aDen Q K = Cert.Attn.denom X Wq := by
  funext b h q
  unfold Cert.Attn.aDen Cert.Attn.denom
  rw [aExp_eq X Wq Q K hQ hK]

/-- The attention weights. -/
theorem aProb_eq
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d)) :
    Cert.Attn.aProb Q K = Cert.Attn.prob X Wq := by
  funext b h q k
  unfold Cert.Attn.aProb Cert.Attn.prob
  rw [aExp_eq X Wq Q K hQ hK, aDen_eq X Wq Q K hQ hK]

/-- The attention weight at an index. -/
theorem aProb_apply
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d))
    (b : Fin 2) (h : Fin 12) (q k : Fin 2048) :
    Cert.Attn.aProb Q K b h q k = Cert.Attn.prob X Wq b h q k := by
  rw [aProb_eq X Wq Q K hQ hK]

/-- The mean-weight array is the specification's second array. -/
theorem arrMean_eq
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d)) :
    Cert.Attn.arrMean Q K = Cert.Attn.meanArr X Wq := by
  funext i
  unfold Cert.Attn.arrMean Cert.Attn.meanArr Cert.Attn.aMean Cert.Attn.meanProb
  rw [aProb_eq X Wq Q K hQ hK]

/-- The context array at an index is the specification's context. -/
theorem arrCtx_apply
    (hQ : ∀ (b : Fin 2) (h : Fin 12) (s : Fin 2048) (d : Fin 64), Q (ix4 b h s d) = Cert.Attn.proj X Wq b s (Cert.Attn.featQ h d))
    (hK : ∀ (b : Fin 2) (h : Fin 12) (s : Fin 2048) (d : Fin 64), K (ix4 b h s d) = Cert.Attn.proj X Wq b s (Cert.Attn.featK h d))
    (hV : ∀ (b : Fin 2) (h : Fin 12) (s : Fin 2048) (d : Fin 64), V (ix4 b h s d) = Cert.Attn.proj X Wq b s (Cert.Attn.featV h d))
    (b : Fin 2) (h : Fin 12) (s : Fin 2048) (d : Fin 64) :
    Cert.Attn.arrCtx Q K V (ix4 b h s d) = Cert.Attn.ctx X Wq b h s d := by
  unfold Cert.Attn.arrCtx Cert.Attn.aCtx Cert.Attn.ctx
  show ∑ k : Fin 2048, Cert.Attn.aProb Q K b h s k * V (ix4 b h k d) = _
  rw [aProb_eq X Wq Q K hQ hK]
  exact Finset.sum_congr rfl fun k _ => by rw [hV]

end Cert.Attn.Lay

end
-- ==== Proof.KernelJoinProducts.lean ====
/-
  The two matrix products over the stacked rows are the specification's fused projection and first result, once
  their operands are the stacked input (respectively the stacked flattened contexts) and the weights.
-/
import proofs.«177644_j16097537425671_2_alg».proof.Proof.Spec
import proofs.«177644_j16097537425671_2_alg».proof.Proof.TiledProduct0
import proofs.«177644_j16097537425671_2_alg».proof.Proof.TiledProduct2

noncomputable section

open scoped BigOperators

namespace Cert.Attn.Lay

open Idealize.ShloMosaic Idealize.ShloMosaic.ValueIdx Cert.KernelIdeal

variable (X : Cert.Attn.XIdx → EReal) (Wq : Cert.Attn.WqIdx → EReal) (Wo : Cert.Attn.WoIdx → EReal)

/-- Row r = b·2048 + s of the first product is the fused projection of row s of sequence b. -/
theorem product0_proj (A : S4096x768.Idx → EReal) (W : S2304x768.Idx → EReal)
    (b : Fin 2) (s : Fin 2048) (r : Fin 4096) (f : Fin 2304)
    (hA : ∀ k : Fin 768, A (ix2 r k) = X (ix3 b s k))
    (hW : ∀ (f : Fin 2304) (k : Fin 768), W (ix2 f k) = Wq (ix2 f k)) :
    Cert.Attn.Tiled.product0 A W (ix2 r f) = Cert.Attn.proj X Wq b s f := by
  rw [Cert.Attn.Tiled.product0_apply]
  unfold Cert.Attn.proj
  refine Finset.sum_congr rfl fun k _ => ?_
  show A (ix2 r k) * W (ix2 f k) = _
  rw [hA, hW]

/-- Row r = b·2048 + s of the last product is the first result at row s of sequence b. -/
theorem product2_out (Cf : S4096x768.Idx → EReal) (Wo' : S768x768.Idx → EReal)
    (b : Fin 2) (s : Fin 2048) (r : Fin 4096) (f : Fin 768)
    (hC : ∀ c : Fin 768, Cf (ix2 r c) = Cert.Attn.ctxFlat X Wq b s c)
    (hW : ∀ (f : Fin 768) (c : Fin 768), Wo' (ix2 f c) = Wo (ix2 f c)) :
    Cert.Attn.Tiled.product2 Cf Wo' (ix2 r f) = Cert.Attn.out X Wq Wo b s f := by
  rw [Cert.Attn.Tiled.product2_apply]
  unfold Cert.Attn.out
  refine Finset.sum_congr rfl fun c _ => ?_
  show Cf (ix2 r c) * Wo' (ix2 f c) = _
  rw [hC, hW]

end Cert.Attn.Lay

end
-- ==== Proof.KernelValue.lean ====
/-
  The idealized kernel program's two results as functions of its three arguments.

  Row b·2048 + s of the first region's product is the fused projection of row s of sequence b; its three head-major
  slices are the queries, keys and values of Spec.lean; the attention region's arrays are then the heads' contexts
  and the mean weights; the contexts laid side by side and multiplied with the output weight are the first result,
  rows unstacked; the mean weights reach the second result untouched.
-/
import proofs.«177644_j16097537425671_2_alg».proof.Proof.KernelStages
import proofs.«177644_j16097537425671_2_alg».proof.Proof.KernelLayouts
import proofs.«177644_j16097537425671_2_alg».proof.Proof.KernelJoinAttn
import proofs.«177644_j16097537425671_2_alg».proof.Proof.KernelJoinProducts
import proofs.«177644_j16097537425671_2_alg».proof.Proof.Spec

set_option maxRecDepth 16384

noncomputable section

namespace Cert.Attn.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The three arguments as arrays of extended reals. -/
abbrev argX (c : Dev nD) : Cert.Attn.XIdx → EReal := m ((c.tc : Thread nD τ).loc main_arg0)
abbrev argWq (c : Dev nD) : Cert.Attn.WqIdx → EReal := m ((c.tc : Thread nD τ).loc main_arg1)
abbrev argWo (c : Dev nD) : Cert.Attn.WoIdx → EReal := m ((c.tc : Thread nD τ).loc main_arg2)

/-- Row b·2048 + s of the first product is the fused projection of row s of sequence b. -/
theorem qkv_apply (c : Dev nD) (b : Fin 2) (s : Fin 2048) (f : Fin 2304) :
    W2 (F := Ideal) m ρ c (Proc.devRef .tc main_v4) (ix2 (⟨b.val * 2048 + s.val, by omega⟩ : Fin 4096) f)
      = Cert.Attn.proj (argX m c) (argWq m c) b s f := by
  rw [Cert.Attn.Stage.W2_v4]
  exact Cert.Attn.Lay.product0_proj (argX m c) (argWq m c) _ _ b s _ f
    (fun k => Cert.Attn.Lay.stack_rows _ _ _ b s k _ rfl) (fun _ _ => rfl)

/-- The query slice. -/
theorem queries_apply (c : Dev nD) (b : Fin 2) (h : Fin 12) (s : Fin 2048) (d : Fin 64) :
    (extractStridedSlice S2x12x2048x64 ![0, 0, 0, 0] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_0) (ix4 b h s d)
      = Cert.Attn.proj (argX m c) (argWq m c) b s (Cert.Attn.featQ h d) :=
  (Cert.Attn.Lay.heads_query _ _ _ _ b h s d).trans (qkv_apply m ρ c b s (Cert.Attn.featQ h d))

/-- The key slice. -/
theorem keys_apply (c : Dev nD) (b : Fin 2) (h : Fin 12) (s : Fin 2048) (d : Fin 64) :
    (extractStridedSlice S2x12x2048x64 ![0, 0, 0, 64] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_64) (ix4 b h s d)
      = Cert.Attn.proj (argX m c) (argWq m c) b s (Cert.Attn.featK h d) :=
  (Cert.Attn.Lay.heads_key _ _ _ _ b h s d).trans (qkv_apply m ρ c b s (Cert.Attn.featK h d))

/-- The value slice. -/
theorem values_apply (c : Dev nD) (b : Fin 2) (h : Fin 12) (s : Fin 2048) (d : Fin 64) :
    (extractStridedSlice S2x12x2048x64 ![0, 0, 0, 128] (transpose S2x12x2048x192 [0, 2, 1, 3]
        (shapeCast S2x2048x12x192 (W2 (F := Ideal) m ρ c (Proc.devRef .tc main_v4)) shapeCasts_S4096x2304_S2x2048x12x192)
        transposes_S2x2048x12x192_S2x12x2048x192_0_2_1_3) slices_S2x12x2048x192_S2x12x2048x64_0_0_0_128) (ix4 b h s d)
      = Cert.Attn.proj (argX m c) (argWq m c) b s (Cert.Attn.featV h d) :=
  (Cert.Attn.Lay.heads_value _ _ _ _ b h s d).trans (qkv_apply m ρ c b s (Cert.Attn.featV h d))

/-- The second result is the mean over the heads of the attention weights. -/
theorem result_mean (c : Dev nD) : W7 (F := Ideal) m ρ c (Proc.devRef .tc main_v10_1)
    = Cert.Attn.meanArr (m ((c.tc : Thread nD τ).loc main_arg0)) (m ((c.tc : Thread nD τ).loc main_arg1)) := by
  rw [Cert.Attn.Glue.W7_v10_1, Cert.Attn.Stage.W4_v10_1]
  exact Cert.Attn.Lay.arrMean_eq (argX m c) (argWq m c) _ _ (queries_apply m ρ c) (keys_apply m ρ c)

/-- The first result is the heads' contexts times the output weight. -/
theorem result_out (c : Dev nD) : W7 (F := Ideal) m ρ c (Proc.devRef .tc main_v14)
    = Cert.Attn.outArr (m ((c.tc : Thread nD τ).loc main_arg0)) (m ((c.tc : Thread nD τ).loc main_arg1)) (m ((c.tc : Thread nD τ).loc main_arg2)) := by
  rw [Cert.Attn.Glue.W7_v14]
  funext i
  obtain ⟨b, s, f, rfl⟩ : ∃ (b : Fin 2) (s : Fin 2048) (f : Fin 768), i = ix3 b s f := ⟨i 0, i 1, i 2, eq_ix3 i⟩
  refine (Cert.Attn.Lay.unstack_rows _ _ b s f).trans ?_
  rw [Cert.Attn.Stage.W6_v13]
  refine (Cert.Attn.Lay.product2_out (argX m c) (argWq m c) (argWo m c) _ _ b s _ f (fun c' => ?_) (fun _ _ => rfl)).trans rfl
  refine (Cert.Attn.Lay.heads_flat _ _ _ b s c' _ rfl).trans ?_
  rw [Cert.Attn.Stage.W4_v10_0]
  exact Cert.Attn.Lay.arrCtx_apply (argX m c) (argWq m c) _ _ _ (queries_apply m ρ c) (keys_apply m ρ c) (values_apply m ρ c) b _ s _

end Cert.Attn.KVal

end
-- ==== Proof.RefProj.lean ====
/-
  The reference's fused projection and its three per-head slices, read at an index.

  The projection is the contraction of a row of the input with a row of the fused weight. Its reshape to
  [2, 2048, 12, 192] is row-major, so coordinate (h, e) of a row is feature h·192 + e; the transpose moves the
  head axis in front of the row axis, and the three slices take e in [0, 64), [64, 128) and [128, 192):
  the query, key and value coordinates of the head.
-/
import proofs.«177644_j16097537425671_2_alg».proof.Proof.Spec
import proofs.«177644_j16097537425671_2_alg».proof.Proof.Gen.ReferenceIdeal.Read

noncomputable section

open scoped BigOperators

namespace Cert.Attn.Ref

open Idealize.ShloMosaic Idealize.ShloMosaic.ValueIdx Cert.ReferenceIdeal Cert.ReferenceIdeal.Read

/-- The argument arrays' types, as the reference's stages take them. -/
abbrev XArr := (⟨S2x2048x768, .f32⟩ : BufTy).Contents (Elt Ideal)
abbrev WqArr := (⟨S2304x768, .f32⟩ : BufTy).Contents (Elt Ideal)
abbrev WoArr := (⟨S768x768, .f32⟩ : BufTy).Contents (Elt Ideal)

/-- The first contraction is the fused projection. -/
theorem v0_eq (x0 : XArr) (x1 : WqArr) (b : Fin 2) (s : Fin 2048) (f : Fin 2304) :
    val_main_v0 (F := Ideal) x0 x1 (ix3 b s f) = Cert.Attn.proj x0 x1 b s f := by
  rw [val_main_v0_apply]
  unfold Cert.Attn.proj
  refine Finset.sum_congr rfl fun k _ => ?_
  have el : lidx_main_v0 (ix3 b s f) k = ix3 b s k :=
    funext fun a => Fin.ext (by match a with | ⟨0, _⟩ => rfl | ⟨1, _⟩ => rfl | ⟨2, _⟩ => rfl)
  have er : ridx_main_v0 (ix3 b s f) k = ix2 f k :=
    funext fun a => Fin.ext (by match a with | ⟨0, _⟩ => rfl | ⟨1, _⟩ => rfl)
  rw [el, er]

/-- Where the query slice's element (b, h, s, d) sits in the projection: row (b, s), feature h·192 + d. -/
theorem idx_query (b : Fin 2) (h : Fin 12) (s : Fin 2048) (d : Fin 64) :
    idx_main_v1 (idx_main_v2 (idx_main_v3 (ix4 b h s d))) = ix3 b s (Cert.Attn.featQ h d) := by
  have hb := b.isLt; have hh := h.isLt; have hs := s.isLt; have hd := d.isLt
  funext a
  apply Fin.ext
  match a with
  | ⟨0, _⟩ => show (((b.val * 2048 + s.val) * 12 + h.val) * 192 + d.val) / 4718592 = b.val; omega
  | ⟨1, _⟩ => show (((b.val * 2048 + s.val) * 12 + h.val) * 192 + d.val) / 2304 % 2048 = s.val; omega
  | ⟨2, _⟩ => show (((b.val * 2048 + s.val) * 12 + h.val) * 192 + d.val) % 2304 = h.val * 192 + d.val; omega

/-- Where the key slice's element (b, h, s, d) sits: row (b, s), feature h·192 + 64 + d. -/
theorem idx_key (b : Fin 2) (h : Fin 12) (s : Fin 2048) (d : Fin 64) :
    idx_main_v1 (idx_main_v2 (idx_main_v4 (ix4 b h s d))) = ix3 b s (Cert.Attn.featK h d) := by
  have hb := b.isLt; have hh := h.isLt; have hs := s.isLt; have hd := d.isLt
  funext a
  apply Fin.ext
  match a with
  | ⟨0, _⟩ => show (((b.val * 2048 + s.val) * 12 + h.val) * 192 + (64 + d.val)) / 4718592 = b.val; omega
  | ⟨1, _⟩ => show (((b.val * 2048 + s.val) * 12 + h.val) * 192 + (64 + d.val)) / 2304 % 2048 = s.val; omega
  | ⟨2, _⟩ => show (((b.val * 2048 + s.val) * 12 + h.val) * 192 + (64 + d.val)) % 2304 = h.val * 192 + 64 + d.val; omega

/-- Where the value slice's element (b, h, s, d) sits: row (b, s), feature h·192 + 128 + d. -/
theorem idx_value (b : Fin 2) (h : Fin 12) (s : Fin 2048) (d : Fin 64) :
    idx_main_v1 (idx_main_v2 (idx_main_v5 (ix4 b h s d))) = ix3 b s (Cert.Attn.featV h d) := by
  have hb := b.isLt; have hh := h.isLt; have hs := s.isLt; have hd := d.isLt
  funext a
  apply Fin.ext
  match a with
  | ⟨0, _⟩ => show (((b.val * 2048 + s.val) * 12 + h.val) * 192 + (128 + d.val)) / 4718592 = b.val; omega
  | ⟨1, _⟩ => show (((b.val * 2048 + s.val) * 12 + h.val) * 192 + (128 + d.val)) / 2304 % 2048 = s.val; omega
  | ⟨2, _⟩ => show (((b.val * 2048 + s.val) * 12 + h.val) * 192 + (128 + d.val)) % 2304 = h.val * 192 + 128 + d.val; omega

/-- The query slice is the projection at the head's query features. -/
theorem v3_eq (x0 : XArr) (x1 : WqArr) (b : Fin 2) (h : Fin 12) (s : Fin 2048) (d : Fin 64) :
    val_main_v3 (F := Ideal) x0 x1 (ix4 b h s d) = Cert.Attn.proj x0 x1 b s (Cert.Attn.featQ h d) := by
  rw [val_main_v3_apply, val_main_v2_apply, val_main_v1_apply, idx_query, v0_eq]

/-- The key slice is the projection at the head's key features. -/
theorem v4_eq (x0 : XArr) (x1 : WqArr) (b : Fin 2) (h : Fin 12) (s : Fin 2048) (d : Fin 64) :
    val_main_v4 (F := Ideal) x0 x1 (ix4 b h s d) = Cert.Attn.proj x0 x1 b s (Cert.Attn.featK h d) := by
  rw [val_main_v4_apply, val_main_v2_apply, val_main_v1_apply, idx_key, v0_eq]

/-- The value slice is the projection at the head's value features. -/
theorem v5_eq (x0 : XArr) (x1 : WqArr) (b : Fin 2) (h : Fin 12) (s : Fin 2048) (d : Fin 64) :
    val_main_v5 (F := Ideal) x0 x1 (ix4 b h s d) = Cert.Attn.proj x0 x1 b s (Cert.Attn.featV h d) := by
  rw [val_main_v5_apply, val_main_v2_apply, val_main_v1_apply, idx_value, v0_eq]

end Cert.Attn.Ref

end
-- ==== Proof.LibSqrtScale.lean ====
/-
  The square root of sixty-four on the extended reals' real part: eight.
-/
import Mathlib.Analysis.SpecialFunctions.Pow.Real

theorem Real.sqrt_sixtyfour : Real.sqrt 64 = 8 := by
  rw [show (64 : ℝ) = 8 * 8 by norm_num]
  exact Real.sqrt_mul_self (by norm_num)
-- ==== Proof.RefConsts.lean ====
/-
  The float constants the reference spells, as the extended reals their binary32 words denote, and the
  scale of the scores: one over the square root of sixty-four is the word of one eighth.
-/
import proofs.«177644_j16097537425671_2_alg».proof.Proof.Spec
import proofs.«177644_j16097537425671_2_alg».proof.Proof.LibSqrtScale

noncomputable section

namespace Cert.Attn.Ref

open Idealize.ShloMosaic

/-- The word of `64.0` denotes the real sixty-four. -/
theorem ofBits_sixtyfour : Ideal.ofBits .f32 0x42800000#32 = ((64 : ℝ) : EReal) := by
  simp [Ideal.ofBits, Ideal.ieee, -EReal.coe_mul]; norm_num

/-- The word of `1.0` denotes one. -/
theorem ofBits_one : Ideal.ofBits .f32 0x3F800000#32 = ((1 : ℝ) : EReal) := by
  simp [Ideal.ofBits, Ideal.ieee, -EReal.coe_mul]; norm_num

/-- The word of `0.125` denotes one eighth. -/
theorem ofBits_eighth : Ideal.ofBits .f32 0x3E000000#32 = ((1 / 8 : ℝ) : EReal) := by
  simp [Ideal.ofBits, Ideal.ieee, -EReal.coe_mul]; norm_num

/-- The word of `12.0` denotes the real twelve. -/
theorem ofBits_twelve : Ideal.ofBits .f32 0x41400000#32 = ((12 : ℝ) : EReal) := by
  simp [Ideal.ofBits, Ideal.ieee, -EReal.coe_mul]; norm_num

/-- One divided by the square root of sixty-four is the scale. -/
theorem div_one_sqrt_sixtyfour :
    Ideal.div (Ideal.ofBits .f32 0x3F800000#32) (Ideal.sqrt (Ideal.ofBits .f32 0x42800000#32)) = Cert.Attn.scale := by
  rw [ofBits_sixtyfour, ofBits_one, Ideal.sqrt_coe, if_neg (by norm_num), Real.sqrt_sixtyfour,
    Ideal.div_coe (by norm_num), Cert.Attn.scale, ofBits_eighth, ← EReal.coe_mul, one_mul]

end Cert.Attn.Ref

end
-- ==== Proof.RefScore.lean ====
/-
  The reference's scores, read at an index: the query–key inner products of a head times the scale.
-/
import proofs.«177644_j16097537425671_2_alg».proof.Proof.RefProj
import proofs.«177644_j16097537425671_2_alg».proof.Proof.RefConsts

noncomputable section

open scoped BigOperators

namespace Cert.Attn.Ref

open Idealize.ShloMosaic Idealize.ShloMosaic.ValueIdx Cert.ReferenceIdeal Cert.ReferenceIdeal.Read

/-- One divided by the square root of sixty-four, as the reference computes it, is the scale. -/
theorem v7_eq (i : S_.Idx) : val_main_v7 (F := Ideal) i = Cert.Attn.scale := by
  rw [val_main_v7_apply, val_main_v6_apply, val_main_cst_apply, val_main_cst_0_apply]
  exact div_one_sqrt_sixtyfour

/-- The scale broadcast to the scores' shape. -/
theorem v9_eq (i : S2x12x2048x2048.Idx) : val_main_v9 (F := Ideal) i = Cert.Attn.scale := by
  rw [val_main_v9_apply, v7_eq]

/-- The query–key contraction of a head. -/
theorem v8_eq (x0 : XArr) (x1 : WqArr) (b : Fin 2) (h : Fin 12) (q k : Fin 2048) :
    val_main_v8 (F := Ideal) x0 x1 (ix4 b h q k)
      = ∑ d : Fin 64, Cert.Attn.proj x0 x1 b q (Cert.Attn.featQ h d) * Cert.Attn.proj x0 x1 b k (Cert.Attn.featK h d) := by
  rw [val_main_v8_apply]
  refine Finset.sum_congr rfl fun d _ => ?_
  have el : lidx_main_v8 (ix4 b h q k) d = ix4 b h q d :=
    funext fun a => Fin.ext (by match a with | ⟨0, _⟩ => rfl | ⟨1, _⟩ => rfl | ⟨2, _⟩ => rfl | ⟨3, _⟩ => rfl)
  have er : ridx_main_v8 (ix4 b h q k) d = ix4 b h k d :=
    funext fun a => Fin.ext (by match a with | ⟨0, _⟩ => rfl | ⟨1, _⟩ => rfl | ⟨2, _⟩ => rfl | ⟨3, _⟩ => rfl)
  rw [el, er, v3_eq, v4_eq]

/-- The scaled contraction is the score. -/
theorem v10_eq (x0 : XArr) (x1 : WqArr) (b : Fin 2) (h : Fin 12) (q k : Fin 2048) :
    val_main_v10 (F := Ideal) x0 x1 (ix4 b h q k) = Cert.Attn.score x0 x1 b h q k := by
  rw [val_main_v10_apply, v8_eq, v9_eq]
  rfl

end Cert.Attn.Ref

end
-- ==== Proof.RefMax.lean ====
/-
  The reference's row maximum, read at an index.

  The reduction over the key axis is a fold of the maximum from the seed over that axis's coordinates; the
  reference then takes the maximum of the seed with that fold, which changes nothing, the fold being at least
  its seed.
-/
import proofs.«177644_j16097537425671_2_alg».proof.Proof.RefScore

noncomputable section

open scoped BigOperators

namespace Cert.Attn.Ref

open Idealize.ShloMosaic Idealize.ShloMosaic.ValueIdx Cert.ReferenceIdeal Cert.ReferenceIdeal.Gen Cert.ReferenceIdeal.Read

/-- Dropping the key axis of the scores' shape leaves the rows' shape. -/
theorem reduces_keys : S2x12x2048x2048.Reduces [3] S2x12x2048 := by decide

/-- The row (b, h, q) with key coordinate k inserted is the score index (b, h, q, k). -/
theorem lift_keys (b : Fin 2) (h : Fin 12) (q k : Fin 2048) :
    reduces_keys.lift (ix3 b h q) k = ix4 b h q k :=
  funext fun a => Fin.ext (by match a with | ⟨0, _⟩ => rfl | ⟨1, _⟩ => rfl | ⟨2, _⟩ => rfl | ⟨3, _⟩ => rfl)

/-- The maximum-reduction over the key axis: the fold of the maximum from the seed over the row's scores. -/
theorem v11_eq (x0 : XArr) (x1 : WqArr) (b : Fin 2) (h : Fin 12) (q : Fin 2048) :
    val_main_v11 (F := Ideal) x0 x1 (ix3 b h q)
      = (Finset.univ : Finset (Fin 2048)).fold max Cert.Attn.seed (fun k => Cert.Attn.score x0 x1 b h q k) := by
  unfold val_main_v11
  refine (Host.reduce_eq_fold_single (FloatOps.maximumf (F := Ideal) (φ := .f32)) (val_main_v10 (F := Ideal) x0 x1)
    (val_main_cst_1 (F := Ideal)) reducesTo_S2x12x2048x2048_S2x12x2048_d3 reduces_keys h_S_ (ix3 b h q)).trans ?_
  show (Finset.univ : Finset (Fin 2048)).fold max Cert.Attn.seed
    (fun k => val_main_v10 (F := Ideal) x0 x1 (reduces_keys.lift (ix3 b h q) k)) = _
  refine Finset.fold_congr fun (k : Fin 2048) _ => ?_
  exact (congrArg (val_main_v10 (F := Ideal) x0 x1) (lift_keys b h q k)).trans (v10_eq x0 x1 b h q k)

/-- The seed broadcast to the rows' shape. -/
theorem v12_eq (j : S2x12x2048.Idx) : val_main_v12 (F := Ideal) j = Cert.Attn.seed := by
  rw [val_main_v12_apply, val_main_cst_2_apply]
  rfl

/-- The maximum of the seed and the fold is the fold: the row's maximum. -/
theorem v13_eq (x0 : XArr) (x1 : WqArr) (b : Fin 2) (h : Fin 12) (q : Fin 2048) :
    val_main_v13 (F := Ideal) x0 x1 (ix3 b h q) = Cert.Attn.rowMax x0 x1 b h q := by
  rw [val_main_v13_apply, v12_eq, v11_eq]
  unfold Cert.Attn.rowMax
  show max Cert.Attn.seed _ = _
  exact max_eq_right ((Finset.le_fold_max _).mpr (Or.inl le_rfl))

end Cert.Attn.Ref

end
-- ==== Proof.RefSoftmax.lean ====
/-
  The reference's attention weights, read at an index: the exponential of a score less its row's maximum,
  the row's sum of these, and their quotient.
-/
import proofs.«177644_j16097537425671_2_alg».proof.Proof.RefMax

noncomputable section

open scoped BigOperators

namespace Cert.Attn.Ref

open Idealize.ShloMosaic Idealize.ShloMosaic.ValueIdx Cert.ReferenceIdeal Cert.ReferenceIdeal.Gen Cert.ReferenceIdeal.Read

/-- The row's maximum broadcast along the key axis. -/
theorem v15_eq (x0 : XArr) (x1 : WqArr) (b : Fin 2) (h : Fin 12) (q k : Fin 2048) :
    val_main_v15 (F := Ideal) x0 x1 (ix4 b h q k) = Cert.Attn.rowMax x0 x1 b h q := by
  rw [val_main_v15_apply, val_main_v14_apply]
  have e : idx_main_v14 (idx_main_v15 (ix4 b h q k)) = ix3 b h q :=
    funext fun a => Fin.ext (by match a with | ⟨0, _⟩ => rfl | ⟨1, _⟩ => rfl | ⟨2, _⟩ => rfl)
  rw [e, v13_eq]

/-- The exponential of a score less its row's maximum. -/
theorem v17_eq (x0 : XArr) (x1 : WqArr) (b : Fin 2) (h : Fin 12) (q k : Fin 2048) :
    val_main_v17 (F := Ideal) x0 x1 (ix4 b h q k) = Cert.Attn.expo x0 x1 b h q k := by
  rw [val_main_v17_apply, val_main_v16_apply, v10_eq, v15_eq]
  rfl

/-- The row's sum of exponentials: the initial value is zero. -/
theorem v18_eq (x0 : XArr) (x1 : WqArr) (b : Fin 2) (h : Fin 12) (q : Fin 2048) :
    val_main_v18 (F := Ideal) x0 x1 (ix3 b h q) = Cert.Attn.denom x0 x1 b h q := by
  rw [val_main_v18_apply, val_main_cst_3_apply, Ideal.ofBits_def, Ideal.ofBits_zero_f32, zero_add]
  unfold Cert.Attn.denom
  refine Finset.sum_congr rfl fun k _ => ?_
  have e : idx_main_v18 (ix3 b h q) k = ix4 b h q k :=
    funext fun a => Fin.ext (by match a with | ⟨0, _⟩ => rfl | ⟨1, _⟩ => rfl | ⟨2, _⟩ => rfl | ⟨3, _⟩ => rfl)
  rw [e, v17_eq]

/-- The row's sum broadcast along the key axis. -/
theorem v20_eq (x0 : XArr) (x1 : WqArr) (b : Fin 2) (h : Fin 12) (q k : Fin 2048) :
    val_main_v20 (F := Ideal) x0 x1 (ix4 b h q k) = Cert.Attn.denom x0 x1 b h q := by
  rw [val_main_v20_apply, val_main_v19_apply]
  have e : idx_main_v19 (idx_main_v20 (ix4 b h q k)) = ix3 b h q :=
    funext fun a => Fin.ext (by match a with | ⟨0, _⟩ => rfl | ⟨1, _⟩ => rfl | ⟨2, _⟩ => rfl)
  rw [e, v18_eq]

/-- The attention weight. -/
theorem v21_eq (x0 : XArr) (x1 : WqArr) (b : Fin 2) (h : Fin 12) (q k : Fin 2048) :
    val_main_v21 (F := Ideal) x0 x1 (ix4 b h q k) = Cert.Attn.prob x0 x1 b h q k := by
  rw [val_main_v21_apply, v17_eq, v20_eq]
  rfl

end Cert.Attn.Ref

end
-- ==== Proof.RefCtx.lean ====
/-
  The reference's contexts and first result, read at an index.

  A head's context is the weights' product with the head's values. The transpose puts the row axis in front of
  the head axis and the reshape to [2, 2048, 768] is row-major, so feature c of a row is coordinate c % 64 of
  head c / 64. The first result is the contraction of that with a row of the output weight.
-/
import proofs.«177644_j16097537425671_2_alg».proof.Proof.RefSoftmax

noncomputable section

open scoped BigOperators

namespace Cert.Attn.Ref

open Idealize.ShloMosaic Idealize.ShloMosaic.ValueIdx Cert.ReferenceIdeal Cert.ReferenceIdeal.Gen Cert.ReferenceIdeal.Read

/-- A head's context. -/
theorem v22_eq (x0 : XArr) (x1 : WqArr) (b : Fin 2) (h : Fin 12) (q : Fin 2048) (d : Fin 64) :
    val_main_v22 (F := Ideal) x0 x1 (ix4 b h q d) = Cert.Attn.ctx x0 x1 b h q d := by
  rw [val_main_v22_apply]
  unfold Cert.Attn.ctx
  refine Finset.sum_congr rfl fun k _ => ?_
  have el : lidx_main_v22 (ix4 b h q d) k = ix4 b h q k :=
    funext fun a => Fin.ext (by match a with | ⟨0, _⟩ => rfl | ⟨1, _⟩ => rfl | ⟨2, _⟩ => rfl | ⟨3, _⟩ => rfl)
  have er : ridx_main_v22 (ix4 b h q d) k = ix4 b h k d :=
    funext fun a => Fin.ext (by match a with | ⟨0, _⟩ => rfl | ⟨1, _⟩ => rfl | ⟨2, _⟩ => rfl | ⟨3, _⟩ => rfl)
  rw [el, er, v21_eq, v5_eq]

/-- Where feature c of row (b, s) of the flattened contexts sits: head c / 64, row s, coordinate c % 64. -/
theorem idx_flat (b : Fin 2) (s : Fin 2048) (c : Fin 768) :
    idx_main_v23 (idx_main_v24 (ix3 b s c))
      = ix4 b (⟨c.val / 64, by omega⟩ : Fin 12) s (⟨c.val % 64, by omega⟩ : Fin 64) := by
  have hb := b.isLt; have hs := s.isLt; have hc := c.isLt
  funext a
  apply Fin.ext
  match a with
  | ⟨0, _⟩ => show ((b.val * 2048 + s.val) * 768 + c.val) / 1572864 = b.val; omega
  | ⟨1, _⟩ => show ((b.val * 2048 + s.val) * 768 + c.val) / 64 % 12 = c.val / 64; omega
  | ⟨2, _⟩ => show ((b.val * 2048 + s.val) * 768 + c.val) / 768 % 2048 = s.val; omega
  | ⟨3, _⟩ => show ((b.val * 2048 + s.val) * 768 + c.val) % 64 = c.val % 64; omega

/-- The heads' contexts side by side. -/
theorem v24_eq (x0 : XArr) (x1 : WqArr) (b : Fin 2) (s : Fin 2048) (c : Fin 768) :
    val_main_v24 (F := Ideal) x0 x1 (ix3 b s c) = Cert.Attn.ctxFlat x0 x1 b s c := by
  rw [val_main_v24_apply, val_main_v23_apply, idx_flat, v22_eq]
  rfl

/-- The first result at an index. -/
theorem v25_eq (x0 : XArr) (x1 : WqArr) (x2 : WoArr) (b : Fin 2) (s : Fin 2048) (f : Fin 768) :
    val_main_v25 (F := Ideal) x0 x1 x2 (ix3 b s f) = Cert.Attn.out x0 x1 x2 b s f := by
  rw [val_main_v25_apply]
  unfold Cert.Attn.out
  refine Finset.sum_congr rfl fun c _ => ?_
  have el : lidx_main_v25 (ix3 b s f) c = ix3 b s c :=
    funext fun a => Fin.ext (by match a with | ⟨0, _⟩ => rfl | ⟨1, _⟩ => rfl | ⟨2, _⟩ => rfl)
  have er : ridx_main_v25 (ix3 b s f) c = ix2 f c :=
    funext fun a => Fin.ext (by match a with | ⟨0, _⟩ => rfl | ⟨1, _⟩ => rfl)
  rw [el, er, v24_eq]

end Cert.Attn.Ref

end
-- ==== Proof.RefMean.lean ====
/-
  The reference's second result, read at an index: the sum over the twelve heads of the attention weights,
  divided by twelve, which is the product with one twelfth.
-/
import proofs.«177644_j16097537425671_2_alg».proof.Proof.RefSoftmax

noncomputable section

open scoped BigOperators

namespace Cert.Attn.Ref

open Idealize.ShloMosaic Idealize.ShloMosaic.ValueIdx Cert.ReferenceIdeal Cert.ReferenceIdeal.Gen Cert.ReferenceIdeal.Read

/-- The sum over the heads: the initial value is zero. -/
theorem v26_eq (x0 : XArr) (x1 : WqArr) (b : Fin 2) (q k : Fin 2048) :
    val_main_v26 (F := Ideal) x0 x1 (ix3 b q k) = ∑ h : Fin 12, Cert.Attn.prob x0 x1 b h q k := by
  rw [val_main_v26_apply, val_main_cst_4_apply, Ideal.ofBits_def, Ideal.ofBits_zero_f32, zero_add]
  refine Finset.sum_congr rfl fun h _ => ?_
  have e : idx_main_v26 (ix3 b q k) h = ix4 b h q k :=
    funext fun a => Fin.ext (by match a with | ⟨0, _⟩ => rfl | ⟨1, _⟩ => rfl | ⟨2, _⟩ => rfl | ⟨3, _⟩ => rfl)
  rw [e, v21_eq]

/-- The divisor broadcast to the result's shape is twelve. -/
theorem v27_eq (i : S2x2048x2048.Idx) : val_main_v27 (F := Ideal) i = ((12 : ℝ) : EReal) := by
  rw [val_main_v27_apply, val_main_cst_5_apply, Ideal.ofBits_def, ofBits_twelve]

/-- The second result at an index. -/
theorem v28_eq (x0 : XArr) (x1 : WqArr) (b : Fin 2) (q k : Fin 2048) :
    val_main_v28 (F := Ideal) x0 x1 (ix3 b q k) = Cert.Attn.meanProb x0 x1 b q k := by
  rw [val_main_v28_apply, v26_eq, v27_eq, Ideal.hostDivf_def, Ideal.div_coe (by norm_num)]
  rfl

end Cert.Attn.Ref

end
-- ==== Proof.RefValue.lean ====
/-
  The reference's two results are the specification's two arrays.
-/
import proofs.«177644_j16097537425671_2_alg».proof.Proof.RefCtx
import proofs.«177644_j16097537425671_2_alg».proof.Proof.RefMean

noncomputable section

namespace Cert.Attn.Ref

open Idealize.ShloMosaic Idealize.ShloMosaic.ValueIdx Cert.ReferenceIdeal Cert.ReferenceIdeal.Read

/-- The reference's first result is the attention output. -/
theorem ref_out (x0 : (⟨Cert.ReferenceIdeal.S2x2048x768, .f32⟩ : BufTy).Contents (Elt Ideal))
    (x1 : (⟨Cert.ReferenceIdeal.S2304x768, .f32⟩ : BufTy).Contents (Elt Ideal))
    (x2 : (⟨Cert.ReferenceIdeal.S768x768, .f32⟩ : BufTy).Contents (Elt Ideal)) :
    Cert.ReferenceIdeal.Read.val_main_v25 (F := Ideal) x0 x1 x2 = Cert.Attn.outArr x0 x1 x2 := by
  funext i
  obtain ⟨b, s, f, rfl⟩ : ∃ (b : Fin 2) (s : Fin 2048) (f : Fin 768), i = ix3 b s f := ⟨i 0, i 1, i 2, eq_ix3 i⟩
  rw [v25_eq]
  rfl

/-- The reference's second result is the mean of the heads' attention weights. -/
theorem ref_mean (x0 : (⟨Cert.ReferenceIdeal.S2x2048x768, .f32⟩ : BufTy).Contents (Elt Ideal))
    (x1 : (⟨Cert.ReferenceIdeal.S2304x768, .f32⟩ : BufTy).Contents (Elt Ideal)) :
    Cert.ReferenceIdeal.Read.val_main_v28 (F := Ideal) x0 x1 = Cert.Attn.meanArr x0 x1 := by
  funext i
  obtain ⟨b, q, k, rfl⟩ : ∃ (b : Fin 2) (q : Fin 2048) (k : Fin 2048), i = ix3 b q k := ⟨i 0, i 1, i 2, eq_ix3 i⟩
  rw [v28_eq]
  rfl

end Cert.Attn.Ref

end
-- ==== Proof.lean ====
/-
  Multi-head self-attention: the tiled kernel program against the plain reference, on the extended reals.

  Both programs compute, for 2 sequences of 2048 rows of 768 features and 12 heads of width 64: the fused
  projection of every row; per head the scaled query–key scores, each row's weights exp(score − row maximum) over
  the row's sum; the heads' contexts laid side by side and multiplied with the output weight; and the mean over the
  heads of the weights. The kernel program does it in three pipelined regions (a row-tiled product, an attention
  region that walks the 12 heads at each block of 256 query rows and accumulates the mean as twelve terms times
  1/12, and a second row-tiled product) joined by re-layouts; the reference does it with whole-array operations,
  its scale 1/√64 and its mean a division by 12. Index by index both are the functions of Spec.lean: the scale's
  word is one eighth, and multiplying by the non-negative real 1/12 distributes over any sum of extended reals, so
  no finiteness of the inputs is used. The kernel's named constant is the ledger's twelve entries.
-/
import proofs.«177644_j16097537425671_2_alg».proof.Defs
import proofs.«177644_j16097537425671_2_alg».proof.Proof.Gen.Kernel
import proofs.«177644_j16097537425671_2_alg».proof.Proof.Gen.Kernel.Skeleton
import proofs.«177644_j16097537425671_2_alg».proof.Proof.Gen.Kernel.Launch
import proofs.«177644_j16097537425671_2_alg».proof.Proof.Gen.Kernel.Points
import proofs.«177644_j16097537425671_2_alg».proof.Proof.Gen.Kernel.Frame
import proofs.«177644_j16097537425671_2_alg».proof.Proof.Gen.KernelIdeal
import proofs.«177644_j16097537425671_2_alg».proof.Proof.Gen.KernelIdeal.Skeleton
import proofs.«177644_j16097537425671_2_alg».proof.Proof.Gen.KernelIdeal.Launch
import proofs.«177644_j16097537425671_2_alg».proof.Proof.Gen.KernelIdeal.Points
import proofs.«177644_j16097537425671_2_alg».proof.Proof.Gen.KernelIdeal.Frame
import proofs.«177644_j16097537425671_2_alg».proof.Proof.Gen.ReferenceIdeal
import proofs.«177644_j16097537425671_2_alg».proof.Proof.Gen.ReferenceIdeal.Run
import proofs.«177644_j16097537425671_2_alg».proof.Proof.Gen.ReferenceIdeal.Read
import proofs.«177644_j16097537425671_2_alg».proof.Proof.Gen.Pre_finite_inputs
import proofs.«177644_j16097537425671_2_alg».proof.Proof.KernelRun
import proofs.«177644_j16097537425671_2_alg».proof.Proof.KernelValue
import proofs.«177644_j16097537425671_2_alg».proof.Proof.RefValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The table gives the name "inv_12" the rational 1/12, at each of the twelve sites the constant is printed. -/
theorem inv_12_entry : IdealRules.named_const.Statement Cert.KernelIdeal.κ "inv_12" .f32 0x3DAAAAAB#32 ((1 / 12 : ℝ) : EReal) :=
  IdealRules.named_const.statement Cert.KernelIdeal.κ "inv_12" .f32 0x3DAAAAAB#32 ((1 / 12 : ℝ) : EReal) rfl

theorem preserves : Cert.preserves_Kernel_KernelIdeal :=
  ⟨inv_12_entry, inv_12_entry, inv_12_entry, inv_12_entry, inv_12_entry, inv_12_entry, inv_12_entry, inv_12_entry,
    inv_12_entry, inv_12_entry, inv_12_entry, inv_12_entry⟩

/-- From memories agreeing on the three arguments both programs end with the projected contexts and the mean
    weights of Spec.lean in their two result buffers. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.meanArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.Attn.KVal.result_out m ρ c), (h c).2.1.trans (Cert.Attn.KVal.result_mean m ρ c), (h c).2.2⟩)
      (Cert.Attn.KRun.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v25_eq, Cert.Attn.Ref.ref_out, (hagree c).1, (hagree c).2.1, (hagree c).2.2]
    · rw [(h c).2.1, Cert.ReferenceIdeal.Read.val_main_v28_eq, Cert.Attn.Ref.ref_mean, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
